-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x64x256x256 : Shape := ⟨5, ![1, 32, 64, 256, 256]⟩
abbrev S64x256x256 : Shape := ⟨3, ![64, 256, 256]⟩
abbrev S_ : Shape := ⟨0, ![]⟩

class Facts : Prop where
  bcast_S_S1x32x64x256x256 : S_.BroadcastsInDim S1x32x64x256x256 (![] : Fin 0 → Fin S1x32x64x256x256.rank)
  reducesTo_S1x32x64x256x256_S_d0_1_2_3_4 : S1x32x64x256x256.ReducesTo [0, 1, 2, 3, 4] S_
  h_S_ : 0 < S_.numel

variable [Facts]

def fn {F : FTy → Type} [FloatOps F] (main_arg0 : FVec F S1x32x64x256x256 .f32) (main_arg1 : IVec S64x256x256 32) : IVec S_ 1 :=
  let main_v0 : FVec F S1x32x64x256x256 .f32 := Host.absf main_arg0
  let main_cst : FVec F S_ .f32 := constant S_ .f32 0x7F800000#32
  let main_v1 : FVec F S1x32x64x256x256 .f32 := broadcastInDim S1x32x64x256x256 ![] bcast_S_S1x32x64x256x256 main_cst
  let main_v2 : IVec S1x32x64x256x256 1 := cmpf .olt main_v0 main_v1
  let main_c : IVec S_ 1 := constantI S_ 1 1#1
  let main_v3 : IVec S_ 1 := (fun x v => Host.reduce IntOp.andi x v reducesTo_S1x32x64x256x256_S_d0_1_2_3_4 h_S_) main_v2 main_c
  main_v3
-- ==== Kernel.lean ====
abbrev S1x32x64x256x256 : Shape := ⟨5, ![1, 32, 64, 256, 256]⟩
abbrev S64x256x256 : Shape := ⟨3, ![64, 256, 256]⟩
abbrev S_ : Shape := ⟨0, ![]⟩
abbrev S66x256x256 : Shape := ⟨3, ![66, 256, 256]⟩
abbrev S1x4x4x256x256 : Shape := ⟨5, ![1, 4, 4, 256, 256]⟩
abbrev S1x4x1x256x256 : Shape := ⟨5, ![1, 4, 1, 256, 256]⟩
abbrev S4x256x256 : Shape := ⟨3, ![4, 256, 256]⟩
abbrev S4x4x256x256 : Shape := ⟨4, ![4, 4, 256, 256]⟩
abbrev S4x1x256x256 : Shape := ⟨4, ![4, 1, 256, 256]⟩
abbrev S4x3x256x256 : Shape := ⟨4, ![4, 3, 256, 256]⟩
abbrev S1x4x256x256 : Shape := ⟨4, ![1, 4, 256, 256]⟩

abbrev nBuf : Space → Nat
  | .hbm => 24
  | .vmem => 14
  | .smem => 0
  | _ => 0

abbrev bufTy : (tb : Table) → Fin (tcTables nBuf tb) → BufTy
  | .hbm, ⟨0, _⟩ => ⟨S1x32x64x256x256, .f32⟩
  | .hbm, ⟨1, _⟩ => ⟨S64x256x256, .i32⟩
  | .hbm, ⟨2, _⟩ => ⟨S_, .i32⟩
  | .hbm, ⟨3, _⟩ => ⟨S64x256x256, .i32⟩
  | .hbm, ⟨4, _⟩ => ⟨S64x256x256, .i1⟩
  | .hbm, ⟨5, _⟩ => ⟨S64x256x256, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i1⟩
  | .hbm, ⟨11, _⟩ => ⟨S66x256x256, .i1⟩
  | .hbm, ⟨12, _⟩ => ⟨S64x256x256, .i1⟩
  | .hbm, ⟨13, _⟩ => ⟨S64x256x256, .i1⟩
  | .hbm, ⟨14, _⟩ => ⟨S64x256x256, .i1⟩
  | .hbm, ⟨15, _⟩ => ⟨S64x256x256, .i1⟩
  | .hbm, ⟨16, _⟩ => ⟨S64x256x256, .i1⟩
  | .hbm, ⟨17, _⟩ => ⟨S64x256x256, .i1⟩
  | .hbm, ⟨18, _⟩ => ⟨S64x256x256, .i1⟩
  | .hbm, ⟨19, _⟩ => ⟨S64x256x256, .i1⟩
  | .hbm, ⟨20, _⟩ => ⟨S64x256x256, .f32⟩
  | .hbm, ⟨21, _⟩ => ⟨S64x256x256, .f32⟩
  | .hbm, ⟨22, _⟩ => ⟨S64x256x256, .f32⟩
  | .hbm, ⟨23, _⟩ => ⟨S1x32x64x256x256, .f32⟩
  | .local _ .vmem, ⟨0, _⟩ => ⟨S1x4x4x256x256, .f32⟩
  | .local _ .vmem, ⟨1, _⟩ => ⟨S1x4x4x256x256, .f32⟩
  | .local _ .vmem, ⟨2, _⟩ => ⟨S1x4x1x256x256, .f32⟩
  | .local _ .vmem, ⟨3, _⟩ => ⟨S1x4x1x256x256, .f32⟩
  | .local _ .vmem, ⟨4, _⟩ => ⟨S1x4x1x256x256, .f32⟩
  | .local _ .vmem, ⟨5, _⟩ => ⟨S1x4x1x256x256, .f32⟩
  | .local _ .vmem, ⟨6, _⟩ => ⟨S4x256x256, .f32⟩
  | .local _ .vmem, ⟨7, _⟩ => ⟨S4x256x256, .f32⟩
  | .local _ .vmem, ⟨8, _⟩ => ⟨S4x256x256, .f32⟩
  | .local _ .vmem, ⟨9, _⟩ => ⟨S4x256x256, .f32⟩
  | .local _ .vmem, ⟨10, _⟩ => ⟨S4x256x256, .f32⟩
  | .local _ .vmem, ⟨11, _⟩ => ⟨S4x256x256, .f32⟩
  | .local _ .vmem, ⟨12, _⟩ => ⟨S1x4x4x256x256, .f32⟩
  | .local _ .vmem, ⟨13, _⟩ => ⟨S1x4x4x256x256, .f32⟩
  | _, _ => ⟨S1x32x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, arg0.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let c63_i32 : BitVec 32 := 63#32
  let v2 : BitVec 32 := Scalar.maxsi c0_i32 v1
  let v3 : BitVec 32 := Scalar.minsi c63_i32 v2
  let c0_i32_0 : BitVec 32 := 0#32
  let c0_i32_1 : BitVec 32 := 0#32
  let c0_i32_2 : BitVec 32 := 0#32
  let c0_i32_3 : BitVec 32 := 0#32
  ![c0_i32_0.toNat, arg1.toNat, v3.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.addi v0 c4_i32_0
  let c0_i32 : BitVec 32 := 0#32
  let c63_i32 : BitVec 32 := 63#32
  let v2 : BitVec 32 := Scalar.maxsi c0_i32 v1
  let v3 : BitVec 32 := Scalar.minsi c63_i32 v2
  let c0_i32_1 : BitVec 32 := 0#32
  let c0_i32_2 : BitVec 32 := 0#32
  let c0_i32_3 : BitVec 32 := 0#32
  let c0_i32_4 : BitVec 32 := 0#32
  ![c0_i32_1.toNat, arg1.toNat, v3.toNat, c0_i32_2.toNat, c0_i32_3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, arg0.toNat, c0_i32_0.toNat, c0_i32_1.toNat]

abbrev stage0_0 : Fin 2 → Memref sig .tc .vmem S1x4x4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x4x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S64x256x256 : S_.BroadcastsInDim S64x256x256 (![] : Fin 0 → Fin S64x256x256.rank)
  bcast_S_S_ : S_.BroadcastsInDim S_ (![] : Fin 0 → Fin S_.rank)
  pads_S64x256x256_S66x256x256_110_000_000 : S64x256x256.Pads (![1, 0, 0] : Fin 3 → Nat) ![1, 0, 0] ![0, 0, 0] S66x256x256
  h_S_ : 0 < S_.numel
  slices_S66x256x256_S64x256x256_0_0_0 : S66x256x256.Slices ![0, 0, 0] S64x256x256
  slices_S66x256x256_S64x256x256_1_0_0 : S66x256x256.Slices ![1, 0, 0] S64x256x256
  slices_S66x256x256_S64x256x256_2_0_0 : S66x256x256.Slices ![2, 0, 0] S64x256x256
  inb_S1x4x4x256x256_S1x4x4x256x256_0_0_0_0_0 : ∀ a, (![0, 0, 0, 0, 0] : Fin 5 → Nat) a + S1x4x4x256x256.size a ≤ S1x4x4x256x256.size a
  h_S1x4x4x256x256 : 0 < S1x4x4x256x256.numel
  shapeCasts_S1x4x4x256x256_S4x4x256x256 : S1x4x4x256x256.ShapeCasts S4x4x256x256
  inb_S1x4x1x256x256_S1x4x1x256x256_0_0_0_0_0 : ∀ a, (![0, 0, 0, 0, 0] : Fin 5 → Nat) a + S1x4x1x256x256.size a ≤ S1x4x1x256x256.size a
  h_S1x4x1x256x256 : 0 < S1x4x1x256x256.numel
  shapeCasts_S1x4x1x256x256_S4x256x256 : S1x4x1x256x256.ShapeCasts S4x256x256
  inb_S4x256x256_S4x256x256_0_0_0 : ∀ a, (![0, 0, 0] : Fin 3 → Nat) a + S4x256x256.size a ≤ S4x256x256.size a
  h_S4x256x256 : 0 < S4x256x256.numel
  shapeCasts_S4x256x256_S4x256x256 : S4x256x256.ShapeCasts S4x256x256
  shapeCasts_S4x256x256_S4x1x256x256 : S4x256x256.ShapeCasts S4x1x256x256
  slices_S4x4x256x256_o0_0_0_0_S4x3x256x256 : S4x4x256x256.Slices ![0, 0, 0, 0] S4x3x256x256
  concatenates_S4x1x256x256_S4x3x256x256_S4x4x256x256_d1 : Shape.Concatenates [S4x1x256x256, S4x3x256x256] S4x4x256x256 1
  slices_S4x4x256x256_o0_1_0_0_S4x3x256x256 : S4x4x256x256.Slices ![0, 1, 0, 0] S4x3x256x256
  concatenates_S4x3x256x256_S4x1x256x256_S4x4x256x256_d1 : Shape.Concatenates [S4x3x256x256, S4x1x256x256] S4x4x256x256 1
  shapeCasts_S4x256x256_S1x4x256x256 : S4x256x256.ShapeCasts S1x4x256x256
  broadcasts_S1x4x256x256_S4x4x256x256 : S1x4x256x256.Broadcasts S4x4x256x256
  shapeCasts_S4x4x256x256_S1x4x4x256x256 : S4x4x256x256.ShapeCasts S1x4x4x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x4x256x256.size a ≤ S1x32x64x256x256.size a
  hwx0_0 : ∀ i : grid0.Coords, EltTy.bits .f32 = 32 ∨ (Rect.block (s := S1x32x64x256x256) S1x4x4x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x1x256x256.size a ≤ S1x32x64x256x256.size a
  hwx0_1 : ∀ i : grid0.Coords, EltTy.bits .f32 = 32 ∨ (Rect.block (s := S1x32x64x256x256) S1x4x1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x1x256x256.size a ≤ S1x32x64x256x256.size a
  hwx0_2 : ∀ i : grid0.Coords, EltTy.bits .f32 = 32 ∨ (Rect.block (s := S1x32x64x256x256) S1x4x1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x256.size a ≤ S64x256x256.size a
  hwx0_3 : ∀ i : grid0.Coords, EltTy.bits .f32 = 32 ∨ (Rect.block (s := S64x256x256) S4x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x256.size a ≤ S64x256x256.size a
  hwx0_4 : ∀ i : grid0.Coords, EltTy.bits .f32 = 32 ∨ (Rect.block (s := S64x256x256) S4x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256x256.size a ≤ S64x256x256.size a
  hwx0_5 : ∀ i : grid0.Coords, EltTy.bits .f32 = 32 ∨ (Rect.block (s := S64x256x256) S4x256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4x4x256x256.size a ≤ S1x32x64x256x256.size a
  hwx0_6 : ∀ i : grid0.Coords, EltTy.bits .f32 = 32 ∨ (Rect.block (s := S1x32x64x256x256) S1x4x4x256x256.size (cc0_transform_6 i) (hinb0_6 i)).WholeWords (EltTy.packing .f32)

variable [Facts₀]

abbrev win0_0 : Pipeline.Window sig grid0 :=
  Pipeline.Window.ofSpec (Memref.whole main_arg0) S1x4x4x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4x1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x4x1x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S4x256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S4x256x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x4x4x256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x32x64x256x256 : Shape := ⟨5, ![1, 32, 64, 256, 256]⟩
abbrev S64x256x256 : Shape := ⟨3, ![64, 256, 256]⟩
abbrev S_ : Shape := ⟨0, ![]⟩
abbrev S66x256x256 : Shape := ⟨3, ![66, 256, 256]⟩
abbrev S1x32x66x256x256 : Shape := ⟨5, ![1, 32, 66, 256, 256]⟩
abbrev S1x1x64x256x256 : Shape := ⟨5, ![1, 1, 64, 256, 256]⟩

abbrev nBuf : Space → Nat
  | .hbm => 45
  | .vmem => 0
  | .smem => 0
  | _ => 0

abbrev bufTy : (tb : Table) → Fin (tcTables nBuf tb) → BufTy
  | .hbm, ⟨0, _⟩ => ⟨S1x32x64x256x256, .f32⟩
  | .hbm, ⟨1, _⟩ => ⟨S64x256x256, .i32⟩
  | .hbm, ⟨2, _⟩ => ⟨S_, .i32⟩
  | .hbm, ⟨3, _⟩ => ⟨S64x256x256, .i32⟩
  | .hbm, ⟨4, _⟩ => ⟨S64x256x256, .i1⟩
  | .hbm, ⟨5, _⟩ => ⟨S64x256x256, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i1⟩
  | .hbm, ⟨11, _⟩ => ⟨S66x256x256, .i1⟩
  | .hbm, ⟨12, _⟩ => ⟨S64x256x256, .i1⟩
  | .hbm, ⟨13, _⟩ => ⟨S64x256x256, .i1⟩
  | .hbm, ⟨14, _⟩ => ⟨S64x256x256, .i1⟩
  | .hbm, ⟨15, _⟩ => ⟨S64x256x256, .i1⟩
  | .hbm, ⟨16, _⟩ => ⟨S64x256x256, .i1⟩
  | .hbm, ⟨17, _⟩ => ⟨S64x256x256, .i1⟩
  | .hbm, ⟨18, _⟩ => ⟨S64x256x256, .i1⟩
  | .hbm, ⟨19, _⟩ => ⟨S64x256x256, .i1⟩
  | .hbm, ⟨20, _⟩ => ⟨S_, .i32⟩
  | .hbm, ⟨21, _⟩ => ⟨S_, .f32⟩
  | .hbm, ⟨22, _⟩ => ⟨S1x32x66x256x256, .f32⟩
  | .hbm, ⟨23, _⟩ => ⟨S1x32x64x256x256, .f32⟩
  | .hbm, ⟨24, _⟩ => ⟨S1x32x64x256x256, .f32⟩
  | .hbm, ⟨25, _⟩ => ⟨S64x256x256, .f32⟩
  | .hbm, ⟨26, _⟩ => ⟨S_, .f32⟩
  | .hbm, ⟨27, _⟩ => ⟨S64x256x256, .f32⟩
  | .hbm, ⟨28, _⟩ => ⟨S64x256x256, .f32⟩
  | .hbm, ⟨29, _⟩ => ⟨S1x1x64x256x256, .f32⟩
  | .hbm, ⟨30, _⟩ => ⟨S1x32x64x256x256, .f32⟩
  | .hbm, ⟨31, _⟩ => ⟨S1x32x64x256x256, .f32⟩
  | .hbm, ⟨32, _⟩ => ⟨S64x256x256, .f32⟩
  | .hbm, ⟨33, _⟩ => ⟨S1x1x64x256x256, .f32⟩
  | .hbm, ⟨34, _⟩ => ⟨S1x32x64x256x256, .f32⟩
  | .hbm, ⟨35, _⟩ => ⟨S1x32x64x256x256, .f32⟩
  | .hbm, ⟨36, _⟩ => ⟨S1x32x64x256x256, .f32⟩
  | .hbm, ⟨37, _⟩ => ⟨S64x256x256, .f32⟩
  | .hbm, ⟨38, _⟩ => ⟨S_, .f32⟩
  | .hbm, ⟨39, _⟩ => ⟨S64x256x256, .f32⟩
  | .hbm, ⟨40, _⟩ => ⟨S64x256x256, .f32⟩
  | .hbm, ⟨41, _⟩ => ⟨S1x1x64x256x256, .f32⟩
  | .hbm, ⟨42, _⟩ => ⟨S1x32x64x256x256, .f32⟩
  | .hbm, ⟨43, _⟩ => ⟨S1x32x64x256x256, .f32⟩
  | .hbm, ⟨44, _⟩ => ⟨S1x32x64x256x256, .f32⟩
  | _, _ => ⟨S1x32x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  bcast_S_S64x256x256 : S_.BroadcastsInDim S64x256x256 (![] : Fin 0 → Fin S64x256x256.rank)
  bcast_S_S_ : S_.BroadcastsInDim S_ (![] : Fin 0 → Fin S_.rank)
  pads_S64x256x256_S66x256x256_110_000_000 : S64x256x256.Pads (![1, 0, 0] : Fin 3 → Nat) ![1, 0, 0] ![0, 0, 0] S66x256x256
  h_S_ : 0 < S_.numel
  slices_S66x256x256_S64x256x256_0_0_0 : S66x256x256.Slices ![0, 0, 0] S64x256x256
  slices_S66x256x256_S64x256x256_1_0_0 : S66x256x256.Slices ![1, 0, 0] S64x256x256
  slices_S66x256x256_S64x256x256_2_0_0 : S66x256x256.Slices ![2, 0, 0] S64x256x256
  pads_S1x32x64x256x256_S1x32x66x256x256_000_000_110_000_000 : S1x32x64x256x256.Pads (![0, 0, 1, 0, 0] : Fin 5 → Nat) ![0, 0, 1, 0, 0] ![0, 0, 0, 0, 0] S1x32x66x256x256
  slices_S1x32x66x256x256_S1x32x64x256x256_0_0_0_0_0 : S1x32x66x256x256.Slices ![0, 0, 0, 0, 0] S1x32x64x256x256
  slices_S1x32x66x256x256_S1x32x64x256x256_0_0_2_0_0 : S1x32x66x256x256.Slices ![0, 0, 2, 0, 0] S1x32x64x256x256
  bcast_S64x256x256_S1x1x64x256x256_2_3_4 : S64x256x256.BroadcastsInDim S1x1x64x256x256 (![2, 3, 4] : Fin 3 → Fin S1x1x64x256x256.rank)
  bcast_S1x1x64x256x256_S1x32x64x256x256_0_1_2_3_4 : S1x1x64x256x256.BroadcastsInDim S1x32x64x256x256 (![0, 1, 2, 3, 4] : Fin 5 → Fin S1x32x64x256x256.rank)

variable [Facts₀]

class Facts : Prop extends Facts₀ where

variable [Facts]
-- ==== Proof.Spec.lean ====
/-
  The data-sharing step as one function of its arrays, index by index, at the extended reals.

  `k` is the array [1, 32, 64, 256, 256] (batch, channel, frame, row, column) and `a`, `b`, `c` are three
  arrays [64, 256, 256] (frame, row, column) of weights. The result at (0, ch, t, x, y) is

      (a(t,x,y) · 1/2) · k(ch, t−1, x, y)  +  b(t,x,y) · k(ch, t, x, y)  +  (c(t,x,y) · 1/4) · k(ch, t+1, x, y),

  summed in that grouping. The two programs differ only in what "frame t−1" means at t = 0 and "frame t+1" at t = 63:
  one STAYS at the end frame (`back 0 = 0`, `fwd 63 = 63`), the other reads a ZERO there. When `a` vanishes on
  frame 0 and `c` on frame 63 the factor in front is zero on both sides, and a product with zero is zero for every
  extended real (an infinity included), so the two readings are one function: `share_stay_eq_share_zero`.
-/
import Idealize.ShloMosaic.PureOps.Ideal
import Idealize.ShloMosaic.Lib.ValueIdx

noncomputable section

namespace Cert.DataShare

open Idealize.ShloMosaic Idealize.ShloMosaic.ValueIdx

/-- The shape of `k` and of the result. -/
abbrev SK : Shape := ⟨5, ![1, 32, 64, 256, 256]⟩
/-- The shape of a weight array. -/
abbrev SM : Shape := ⟨3, ![64, 256, 256]⟩

/-- The weight 1/2 of the previous frame, as the word both programs carry. -/
abbrev half : EReal := Ideal.ofBits .f32 0x3F000000#32
/-- The weight 1/4 of the next frame, as the word both programs carry. -/
abbrev quarter : EReal := Ideal.ofBits .f32 0x3E800000#32

/-- One frame back, staying at frame 0. -/
def back (t : Fin 64) : Fin 64 := ⟨t.val - 1, by omega⟩
/-- One frame forward, staying at frame 63. -/
def fwd (t : Fin 64) : Fin 64 := ⟨min (t.val + 1) 63, by omega⟩

/-- The previous frame of `k`, the end frame repeated. -/
def prevStay (k : SK.Idx → EReal) (ch : Fin 32) (t : Fin 64) (x y : Fin 256) : EReal := k (ix5 0 ch (back t) x y)
/-- The next frame of `k`, the end frame repeated. -/
def nextStay (k : SK.Idx → EReal) (ch : Fin 32) (t : Fin 64) (x y : Fin 256) : EReal := k (ix5 0 ch (fwd t) x y)
/-- The previous frame of `k`, zero before the first. -/
def prevZero (k : SK.Idx → EReal) (ch : Fin 32) (t : Fin 64) (x y : Fin 256) : EReal :=
  if t.val = 0 then 0 else k (ix5 0 ch (back t) x y)
/-- The next frame of `k`, zero after the last. -/
def nextZero (k : SK.Idx → EReal) (ch : Fin 32) (t : Fin 64) (x y : Fin 256) : EReal :=
  if t.val = 63 then 0 else k (ix5 0 ch (fwd t) x y)

/-- The step at the coordinates (channel, frame, row, column), for a given reading `prev` / `next` of the neighbouring frames. -/
def shareAt (prev next : Fin 32 → Fin 64 → Fin 256 → Fin 256 → EReal) (k : SK.Idx → EReal) (a b c : SM.Idx → EReal)
    (ch : Fin 32) (t : Fin 64) (x y : Fin 256) : EReal :=
  ((a (ix3 t x y) * half) * prev ch t x y + b (ix3 t x y) * k (ix5 0 ch t x y)) + (c (ix3 t x y) * quarter) * next ch t x y

/-- The step as an array: `shareAt` at the index's coordinates. -/
def share (prev next : Fin 32 → Fin 64 → Fin 256 → Fin 256 → EReal) (k : SK.Idx → EReal) (a b c : SM.Idx → EReal) :
    SK.Idx → EReal := fun i => shareAt prev next k a b c (i 1) (i 2) (i 3) (i 4)

/-- The step with the end frames repeated. -/
def shareStay (k : SK.Idx → EReal) (a b c : SM.Idx → EReal) : SK.Idx → EReal := share (prevStay k) (nextStay k) k a b c
/-- The step with zeros beyond the ends. -/
def shareZero (k : SK.Idx → EReal) (a b c : SM.Idx → EReal) : SK.Idx → EReal := share (prevZero k) (nextZero k) k a b c

/-- When `a` is zero on frame 0 and `c` is zero on frame 63, repeating the end frame and reading a zero there give
    the same result: the differing factor is multiplied by zero, and `0 · x = 0` on all of the extended reals. -/
theorem shareAt_stay_eq_zero (k : SK.Idx → EReal) (a b c : SM.Idx → EReal)
    (ha : ∀ x y : Fin 256, a (ix3 (0 : Fin 64) x y) = 0) (hc : ∀ x y : Fin 256, c (ix3 (63 : Fin 64) x y) = 0)
    (ch : Fin 32) (t : Fin 64) (x y : Fin 256) :
    shareAt (prevStay k) (nextStay k) k a b c ch t x y = shareAt (prevZero k) (nextZero k) k a b c ch t x y := by
  unfold shareAt
  have h1 : (a (ix3 t x y) * half) * prevStay k ch t x y = (a (ix3 t x y) * half) * prevZero k ch t x y := by
    unfold prevZero prevStay
    by_cases h : t.val = 0
    · have e : t = 0 := Fin.ext h
      rw [if_pos h, e, ha, zero_mul, zero_mul, zero_mul]
    · rw [if_neg h]
  have h2 : (c (ix3 t x y) * quarter) * nextStay k ch t x y = (c (ix3 t x y) * quarter) * nextZero k ch t x y := by
    unfold nextZero nextStay
    by_cases h : t.val = 63
    · have e : t = 63 := Fin.ext h
      rw [if_pos h, e, hc, zero_mul, zero_mul, zero_mul]
    · rw [if_neg h]
  rw [h1, h2]

/-- The same, as arrays. -/
theorem share_stay_eq_share_zero (k : SK.Idx → EReal) (a b c : SM.Idx → EReal)
    (ha : ∀ x y : Fin 256, a (ix3 (0 : Fin 64) x y) = 0) (hc : ∀ x y : Fin 256, c (ix3 (63 : Fin 64) x y) = 0) :
    shareStay k a b c = shareZero k a b c :=
  funext fun i => shareAt_stay_eq_zero k a b c ha hc (i 1) (i 2) (i 3) (i 4)

end Cert.DataShare

end
-- ==== Proof.BodyWords.lean ====
/-
  The region of the data-sharing kernel, as its body sees it.

  Before the region @main computes the three weight arrays from the mask (three stretches of elementwise host
  operations, none of which writes an argument), so the region is entered with every buffer at `V`: the contents
  after those operations. Window `w` at grid point `t` stages `blk w t`, the block of its array at the point's
  block index. The body loads its six input blocks whole, computes ONE value from them — `stored`: the weighted sum
  of the previous, current and next frame, the previous and next frames assembled from the tile and the two halo
  frames — and stores it whole into the output block. `body_triple` is that statement about the printed function.
-/
import proofs.«124033_j24472723653316_1_alg».proof.Proof.Gen.Kernel.Launch
import proofs.«124033_j24472723653316_1_alg».proof.Proof.Gen.Kernel.Skeleton
import proofs.«124033_j24472723653316_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Every buffer of core `c` when the region is entered: the launch contents carried through the host operations
    that compute the weight arrays. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is those host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes `k`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.TRef.nullary, StableHlo.TRef.unary, StableHlo.TRef.binary, Finset.mem_singleton]
    repeat' apply And.intro
    all_goals exact StableHlo.devRef_ne_of_ne (by decide)))
/-- No host operation writes the mask: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.TRef.nullary, StableHlo.TRef.unary, StableHlo.TRef.binary, Finset.mem_singleton]
    repeat' apply And.intro
    all_goals exact StableHlo.devRef_ne_of_ne (by decide)))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

/-- The whole of a tile [1, 4, 4, 256, 256], of a halo frame [1, 4, 1, 256, 256] and of a weight block [4, 256, 256]. -/
abbrev rTile : Rect S1x4x4x256x256 := Rect.unit (s := S1x4x4x256x256) ![0, 0, 0, 0, 0] S1x4x4x256x256.size inb_S1x4x4x256x256_S1x4x4x256x256_0_0_0_0_0
abbrev rHalo : Rect S1x4x1x256x256 := Rect.unit (s := S1x4x1x256x256) ![0, 0, 0, 0, 0] S1x4x1x256x256.size inb_S1x4x1x256x256_S1x4x1x256x256_0_0_0_0_0
abbrev rWeight : Rect S4x256x256 := Rect.unit (s := S4x256x256) ![0, 0, 0] S4x256x256.size inb_S4x256x256_S4x256x256_0_0_0

/-- The output block after the body, from the six input blocks: the tile `x0`, the halo frames `x1` (before the tile)
    and `x2` (after it), the weights `x3`, `x4`, `x5` — one store of the whole block. -/
def stored (x0 : Vec F S1x4x4x256x256 .f32) (x1 x2 : Vec F S1x4x1x256x256 .f32) (x3 x4 x5 : Vec F S4x256x256 .f32) : Vec F S1x4x4x256x256 .f32 :=
  View.canon [⟨rTile, k0_pay1 (k0_pay3 (View.ld x0 rTile) (View.ld x1 rHalo) (View.ld x3 rWeight) (View.ld x4 rWeight))
    (k0_pay4 (View.ld x0 rTile) (View.ld x2 rHalo) (View.ld x5 rWeight))⟩]

/-- The one store covers the block. -/
theorem stored_cover (p0 : Vec F S1x4x4x256x256 .f32) (y : S1x4x4x256x256.Idx) :
    ∃ pc ∈ ([⟨rTile, p0⟩] : List (View.Piece (Elt F) S1x4x4x256x256 .f32)), y ∈ pc.1.set :=
  View.cover_of_tiled [⟨rTile, p0⟩] S1x4x4x256x256.size (by rfl) y

/-! ## The body's triple -/

set_option maxHeartbeats 2000000 in
/-- The body on whole staging buffers, the inputs' at contents `x0 … x5` and the output's at anything, runs to the end
    leaving the inputs' as they were and the output's at `stored x0 … x5`. -/
theorem body_triple (c : Dev nD) (E : Set ℕ) (i : grid0.Coords)
    (arg2 : Memref sig .tc .vmem S1x4x4x256x256 .f32) (harg2 : arg2.IsWhole) (arg3 : Memref sig .tc .vmem S1x4x1x256x256 .f32) (harg3 : arg3.IsWhole)
    (arg4 : Memref sig .tc .vmem S1x4x1x256x256 .f32) (harg4 : arg4.IsWhole) (arg5 : Memref sig .tc .vmem S4x256x256 .f32) (harg5 : arg5.IsWhole)
    (arg6 : Memref sig .tc .vmem S4x256x256 .f32) (harg6 : arg6.IsWhole) (arg7 : Memref sig .tc .vmem S4x256x256 .f32) (harg7 : arg7.IsWhole)
    (arg8 : Memref sig .tc .vmem S1x4x4x256x256 .f32) (harg8 : arg8.IsWhole)
    (x0 : Vec F S1x4x4x256x256 .f32) (x1 x2 : Vec F S1x4x1x256x256 .f32) (x3 x4 x5 : Vec F S4x256x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (stored x0 x1 x2 x3 x4 x5)) -∗ K ⟨⟩))
      ⊢ wp frame (wpE (defs₀ (F := F)) Variants.none c none) E (cc0__data_share_kernel i arg2 harg2 arg3 harg3 arg4 harg4 arg5 harg5 arg6 harg6 arg7 harg7 arg8 harg8) K := by
  simp only [cc0__data_share_kernel_eq_skeleton]; unfold cc0__data_share_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stored_cover _)

end Cert.Kernel.Region

end
-- ==== Proof.RunWords.lean ====
/-
  The run of the data-sharing kernel's region, and the frame.

  Three of the region's windows — the tile and its two halo frames — read ONE array, `k`. The region therefore holds
  `k` in three parts of its full share, one per window (a half, a quarter, a quarter): every window only reads, so any
  split will do, and nothing can write `k` while the parts are lent. The other arrays have one window each and are held
  whole. The proof data say what each staging buffer holds after the body at every grid point: an input's its block,
  unchanged, and the output's the value the body stores, `stored` of the six input blocks at that point. From these
  the region runs to the end (`run_main`): every array ends at what the write-backs make of it, every other buffer as
  the region found it; the arguments are no output, so they end as launched (`frame`).
-/
import proofs.«124033_j24472723653316_1_alg».proof.Proof.BodyWords
import Idealize.ShloMosaic.Lib.Pipeline.Frame

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block and
    the output's at `stored` of the input blocks; between points only the scoped buffers that are no staging buffer
    (there is none); nothing owed; `k`'s share dealt a half, a quarter, a quarter to its three windows. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => stored (blk m c 0 t) (blk m c 1 t) (blk m c 2 t) (blk m c 3 t) (blk m c 4 t) (blk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = blk m c 3 t := by dsimp only [dats]
theorem after4 (c : Dev nD) (t : Fin cfg0.N) : (dats m 0 c).after 4 t = blk m c 4 t := by dsimp only [dats]
theorem after5 (c : Dev nD) (t : Fin cfg0.N) : (dats m 0 c).after 5 t = blk m c 5 t := by dsimp only [dats]
theorem after6 (c : Dev nD) (t : Fin cfg0.N) : (dats m 0 c).after 6 t
    = stored (blk m c 0 t) (blk m c 1 t) (blk m c 2 t) (blk m c 3 t) (blk m c 4 t) (blk m c 5 t) := by dsimp only [dats]

/-! ## What the body finds in each input's buffer -/

/-- An input's current buffer holds its block at every point, fetched there or not: where it is not fetched its block
    index has not moved, and the body left the block in place. -/
theorem before0 (c : Dev nD) (t : Fin cfg0.N) (d) : (dats m 0 c).before 0 t d = blk m c 0 t :=
  ((dats m 0 c).before_in_eq_fetched 0 rfl (fun _ => rfl) (fun _ _ _ => rfl) (fun t => by rw [after0]; unfold Dat.blockOf blk; rw [A_eq]; try rfl) t d).trans
    (by unfold Dat.fetched Dat.blockOf blk; rw [A_eq]; try rfl)
theorem before1 (c : Dev nD) (t : Fin cfg0.N) (d) : (dats m 0 c).before 1 t d = blk m c 1 t :=
  ((dats m 0 c).before_in_eq_fetched 1 rfl (fun _ => rfl) (fun _ _ _ => rfl) (fun t => by rw [after1]; unfold Dat.blockOf blk; rw [A_eq]; try rfl) t d).trans
    (by unfold Dat.fetched Dat.blockOf blk; rw [A_eq]; try rfl)
theorem before2 (c : Dev nD) (t : Fin cfg0.N) (d) : (dats m 0 c).before 2 t d = blk m c 2 t :=
  ((dats m 0 c).before_in_eq_fetched 2 rfl (fun _ => rfl) (fun _ _ _ => rfl) (fun t => by rw [after2]; unfold Dat.blockOf blk; rw [A_eq]; try rfl) t d).trans
    (by unfold Dat.fetched Dat.blockOf blk; rw [A_eq]; try rfl)
theorem before3 (c : Dev nD) (t : Fin cfg0.N) (d) : (dats m 0 c).before 3 t d = blk m c 3 t :=
  ((dats m 0 c).before_in_eq_fetched 3 rfl (fun _ => rfl) (fun _ _ _ => rfl) (fun t => by rw [after3]; unfold Dat.blockOf blk; rw [A_eq]; try rfl) t d).trans
    (by unfold Dat.fetched Dat.blockOf blk; rw [A_eq]; try rfl)
theorem before4 (c : Dev nD) (t : Fin cfg0.N) (d) : (dats m 0 c).before 4 t d = blk m c 4 t :=
  ((dats m 0 c).before_in_eq_fetched 4 rfl (fun _ => rfl) (fun _ _ _ => rfl) (fun t => by rw [after4]; unfold Dat.blockOf blk; rw [A_eq]; try rfl) t d).trans
    (by unfold Dat.fetched Dat.blockOf blk; rw [A_eq]; try rfl)
theorem before5 (c : Dev nD) (t : Fin cfg0.N) (d) : (dats m 0 c).before 5 t d = blk m c 5 t :=
  ((dats m 0 c).before_in_eq_fetched 5 rfl (fun _ => rfl) (fun _ _ _ => rfl) (fun t => by rw [after5]; unfold Dat.blockOf blk; rw [A_eq]; try rfl) t d).trans
    (by unfold Dat.fetched Dat.blockOf blk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; what is held between
    points passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _ (blk m c 0 t) (blk m c 1 t) (blk m c 2 t) (blk m c 3 t) (blk m c 4 t) (blk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dats (F := F) m 0 c) (defs₀ (F := F)) Variants.none () Set.univ := fun t => by
  rw [bigSep_W0, bigSep_W0]
  exact sound_body m c t

/-! ## The arrays at the region's entry -/

/-- The distinct buffers behind the windows' arrays, listed: `k`, the three weight arrays and the result. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v12) ↦{fullShare} V m c main_v12)
          ∗ (((c : Thread nD τ).loc main_v13) ↦{fullShare} V m c main_v13) ∗ (((c : Thread nD τ).loc main_v14) ↦{fullShare} V m c main_v14)
          ∗ (((c : Thread nD τ).loc main_v15) ↦{fullShare} V m c main_v15)) := by
  unfold Pipeline.arrBufs
  exact bigSep_eq_bigSepL_of_eq [main_arg0, main_v12, main_v13, main_v14, main_v15] (by decide) (by decide) _

/-- The distinct buffers behind the windows' arrays, each whole at the full share, make the region's arrays: `k`'s full
    share is a half and two quarters, one part per window reading it; the other four arrays are one window's each. -/
theorem entry_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  have e0 : (cfg0.win 0).arr.view.set = Finset.univ := (arr_whole0 0).set_eq_univ
  have e1 : (cfg0.win 1).arr.view.set = Finset.univ := (arr_whole0 1).set_eq_univ
  have e2 : (cfg0.win 2).arr.view.set = Finset.univ := (arr_whole0 2).set_eq_univ
  have e3 : (cfg0.win 3).arr.view.set = Finset.univ := (arr_whole0 3).set_eq_univ
  have e4 : (cfg0.win 4).arr.view.set = Finset.univ := (arr_whole0 4).set_eq_univ
  have e5 : (cfg0.win 5).arr.view.set = Finset.univ := (arr_whole0 5).set_eq_univ
  have e6 : (cfg0.win 6).arr.view.set = Finset.univ := (arr_whole0 6).set_eq_univ
  simp only [e0, e1, e2, e3, e4, e5, e6]
  iintro ⟨Hk, H12, H13, H14, H15⟩
  ihave ⟨Hl, Hr⟩ := (pointsTo_share (PosShare.mem_left_op_right fullShare)).1 $$ Hk
  ihave ⟨Hrl, Hrr⟩ := (pointsTo_share (PosShare.mem_left_op_right fullShare.right)).1 $$ Hr
  isplitl [Hl]; · iexact Hl
  isplitl [Hrl]; · iexact Hrl
  isplitl [Hrr]; · iexact Hrr
  isplitl [H12]; · iexact H12
  isplitl [H13]; · iexact H13
  isplitl [H14]; · iexact H14
  iexact H15

/-! ## The run and the frame -/

/-- Between points the region holds only the scoped buffers that are no staging buffer. -/
theorem Phi_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

set_option backward.isDefEq.respectTransparency.types false in
/-- At the compiled mesh, from any memory with zero counters: every weakly fair execution of @main terminates, and in
    every final state each array of the region holds what the write-backs make of it and every other unscoped buffer
    what it held when the region was entered. -/
theorem run_main : θ_run defs (onTc (τ := τ) (main (F := F))) (s₀ m ρ) (Pipeline.FramePost cfgs (dats m) 0 (V m)) := by
  classical
  refine Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := entry_split m)
    (X := fun _ => iprop(emp)) (Y := fun _ => iprop(emp))
    (Z := fun c => Pipeline.unscopedRest (Ix := Unit) (Name := ℕ) (U := UR sig nD τ) (Lvl := ℕ) spec0 c (V m c))
    (hX := ?hX) (hin := ?hin) (hout := ?hout)
    (QY := fun c s => ∀ b ∈ Pipeline.restRefs sig spec0, s.mem ((c.tc : Thread nD τ).loc b) = V m c b)
    (hY := ?hY) (hQ := fun s h => h)
  case hX =>
    intro c
    iintro H
    isplitr; · iempintro
    iexact H
  case hin =>
    intro c
    rw [Phi_eq]
    iintro ⟨-, H⟩
    iexact H
  case hout =>
    intro c
    rw [Phi_eq]
    iintro H
    isplitr; · iempintro
    iexact H
  case hY =>
    intro c s'
    iintro ⟨-, HU, HSI⟩
    unfold Pipeline.unscopedRest
    imodintro
    iapply (pointsTo_read_all (Pipeline.restRefs sig spec0) (fun b => (c.tc : Thread nD τ).loc b) (V m c) s')
    isplitl [HU] <;> iassumption

/-- THE FRAME: every weakly fair execution of @main terminates, nothing faulting, and both arguments end as launched:
    `k` is an input of the region (what an input's array holds never changes) that no host operation writes, and the
    mask bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 rfl (by decide))).trans (V_main_arg1 m c)⟩) (run_main m ρ)

end Cert.Kernel.Region

end
-- ==== Proof.Body.lean ====
/-
  The region of the data-sharing kernel, as its body sees it.

  Before the region @main computes the three weight arrays from the mask (three stretches of elementwise host
  operations, none of which writes an argument), so the region is entered with every buffer at `V`: the contents
  after those operations. Window `w` at grid point `t` stages `blk w t`, the block of its array at the point's
  block index. The body loads its six input blocks whole, computes ONE value from them — `stored`: the weighted sum
  of the previous, current and next frame, the previous and next frames assembled from the tile and the two halo
  frames — and stores it whole into the output block. `body_triple` is that statement about the printed function.
-/
import proofs.«124033_j24472723653316_1_alg».proof.Proof.Gen.KernelIdeal.Launch
import proofs.«124033_j24472723653316_1_alg».proof.Proof.Gen.KernelIdeal.Skeleton
import proofs.«124033_j24472723653316_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Every buffer of core `c` when the region is entered: the launch contents carried through the host operations
    that compute the weight arrays. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is those host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes `k`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.TRef.nullary, StableHlo.TRef.unary, StableHlo.TRef.binary, Finset.mem_singleton]
    repeat' apply And.intro
    all_goals exact StableHlo.devRef_ne_of_ne (by decide)))
/-- No host operation writes the mask: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.TRef.nullary, StableHlo.TRef.unary, StableHlo.TRef.binary, Finset.mem_singleton]
    repeat' apply And.intro
    all_goals exact StableHlo.devRef_ne_of_ne (by decide)))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

/-- The whole of a tile [1, 4, 4, 256, 256], of a halo frame [1, 4, 1, 256, 256] and of a weight block [4, 256, 256]. -/
abbrev rTile : Rect S1x4x4x256x256 := Rect.unit (s := S1x4x4x256x256) ![0, 0, 0, 0, 0] S1x4x4x256x256.size inb_S1x4x4x256x256_S1x4x4x256x256_0_0_0_0_0
abbrev rHalo : Rect S1x4x1x256x256 := Rect.unit (s := S1x4x1x256x256) ![0, 0, 0, 0, 0] S1x4x1x256x256.size inb_S1x4x1x256x256_S1x4x1x256x256_0_0_0_0_0
abbrev rWeight : Rect S4x256x256 := Rect.unit (s := S4x256x256) ![0, 0, 0] S4x256x256.size inb_S4x256x256_S4x256x256_0_0_0

/-- The output block after the body, from the six input blocks: the tile `x0`, the halo frames `x1` (before the tile)
    and `x2` (after it), the weights `x3`, `x4`, `x5` — one store of the whole block. -/
def stored (x0 : Vec F S1x4x4x256x256 .f32) (x1 x2 : Vec F S1x4x1x256x256 .f32) (x3 x4 x5 : Vec F S4x256x256 .f32) : Vec F S1x4x4x256x256 .f32 :=
  View.canon [⟨rTile, k0_pay1 (k0_pay3 (View.ld x0 rTile) (View.ld x1 rHalo) (View.ld x3 rWeight) (View.ld x4 rWeight))
    (k0_pay4 (View.ld x0 rTile) (View.ld x2 rHalo) (View.ld x5 rWeight))⟩]

/-- The one store covers the block. -/
theorem stored_cover (p0 : Vec F S1x4x4x256x256 .f32) (y : S1x4x4x256x256.Idx) :
    ∃ pc ∈ ([⟨rTile, p0⟩] : List (View.Piece (Elt F) S1x4x4x256x256 .f32)), y ∈ pc.1.set :=
  View.cover_of_tiled [⟨rTile, p0⟩] S1x4x4x256x256.size (by rfl) y

/-! ## The body's triple -/

set_option maxHeartbeats 2000000 in
/-- The body on whole staging buffers, the inputs' at contents `x0 … x5` and the output's at anything, runs to the end
    leaving the inputs' as they were and the output's at `stored x0 … x5`. -/
theorem body_triple (c : Dev nD) (E : Set ℕ) (i : grid0.Coords)
    (arg2 : Memref sig .tc .vmem S1x4x4x256x256 .f32) (harg2 : arg2.IsWhole) (arg3 : Memref sig .tc .vmem S1x4x1x256x256 .f32) (harg3 : arg3.IsWhole)
    (arg4 : Memref sig .tc .vmem S1x4x1x256x256 .f32) (harg4 : arg4.IsWhole) (arg5 : Memref sig .tc .vmem S4x256x256 .f32) (harg5 : arg5.IsWhole)
    (arg6 : Memref sig .tc .vmem S4x256x256 .f32) (harg6 : arg6.IsWhole) (arg7 : Memref sig .tc .vmem S4x256x256 .f32) (harg7 : arg7.IsWhole)
    (arg8 : Memref sig .tc .vmem S1x4x4x256x256 .f32) (harg8 : arg8.IsWhole)
    (x0 : Vec F S1x4x4x256x256 .f32) (x1 x2 : Vec F S1x4x1x256x256 .f32) (x3 x4 x5 : Vec F S4x256x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (stored x0 x1 x2 x3 x4 x5)) -∗ K ⟨⟩))
      ⊢ wp frame (wpE (defs₀ (F := F)) Variants.none c none) E (cc0__data_share_kernel i arg2 harg2 arg3 harg3 arg4 harg4 arg5 harg5 arg6 harg6 arg7 harg7 arg8 harg8) K := by
  simp only [cc0__data_share_kernel_eq_skeleton]; unfold cc0__data_share_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stored_cover _)

end Cert.KernelIdeal.Region

end
-- ==== Proof.Run.lean ====
/-
  The run of the data-sharing kernel's region, and the frame.

  Three of the region's windows — the tile and its two halo frames — read ONE array, `k`. The region therefore holds
  `k` in three parts of its full share, one per window (a half, a quarter, a quarter): every window only reads, so any
  split will do, and nothing can write `k` while the parts are lent. The other arrays have one window each and are held
  whole. The proof data say what each staging buffer holds after the body at every grid point: an input's its block,
  unchanged, and the output's the value the body stores, `stored` of the six input blocks at that point. From these
  the region runs to the end (`run_main`): every array ends at what the write-backs make of it, every other buffer as
  the region found it; the arguments are no output, so they end as launched (`frame`).
-/
import proofs.«124033_j24472723653316_1_alg».proof.Proof.Body
import Idealize.ShloMosaic.Lib.Pipeline.Frame

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block and
    the output's at `stored` of the input blocks; between points only the scoped buffers that are no staging buffer
    (there is none); nothing owed; `k`'s share dealt a half, a quarter, a quarter to its three windows. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => stored (blk m c 0 t) (blk m c 1 t) (blk m c 2 t) (blk m c 3 t) (blk m c 4 t) (blk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = blk m c 3 t := by dsimp only [dats]
theorem after4 (c : Dev nD) (t : Fin cfg0.N) : (dats m 0 c).after 4 t = blk m c 4 t := by dsimp only [dats]
theorem after5 (c : Dev nD) (t : Fin cfg0.N) : (dats m 0 c).after 5 t = blk m c 5 t := by dsimp only [dats]
theorem after6 (c : Dev nD) (t : Fin cfg0.N) : (dats m 0 c).after 6 t
    = stored (blk m c 0 t) (blk m c 1 t) (blk m c 2 t) (blk m c 3 t) (blk m c 4 t) (blk m c 5 t) := by dsimp only [dats]

/-! ## What the body finds in each input's buffer -/

/-- An input's current buffer holds its block at every point, fetched there or not: where it is not fetched its block
    index has not moved, and the body left the block in place. -/
theorem before0 (c : Dev nD) (t : Fin cfg0.N) (d) : (dats m 0 c).before 0 t d = blk m c 0 t :=
  ((dats m 0 c).before_in_eq_fetched 0 rfl (fun _ => rfl) (fun _ _ _ => rfl) (fun t => by rw [after0]; unfold Dat.blockOf blk; rw [A_eq]; try rfl) t d).trans
    (by unfold Dat.fetched Dat.blockOf blk; rw [A_eq]; try rfl)
theorem before1 (c : Dev nD) (t : Fin cfg0.N) (d) : (dats m 0 c).before 1 t d = blk m c 1 t :=
  ((dats m 0 c).before_in_eq_fetched 1 rfl (fun _ => rfl) (fun _ _ _ => rfl) (fun t => by rw [after1]; unfold Dat.blockOf blk; rw [A_eq]; try rfl) t d).trans
    (by unfold Dat.fetched Dat.blockOf blk; rw [A_eq]; try rfl)
theorem before2 (c : Dev nD) (t : Fin cfg0.N) (d) : (dats m 0 c).before 2 t d = blk m c 2 t :=
  ((dats m 0 c).before_in_eq_fetched 2 rfl (fun _ => rfl) (fun _ _ _ => rfl) (fun t => by rw [after2]; unfold Dat.blockOf blk; rw [A_eq]; try rfl) t d).trans
    (by unfold Dat.fetched Dat.blockOf blk; rw [A_eq]; try rfl)
theorem before3 (c : Dev nD) (t : Fin cfg0.N) (d) : (dats m 0 c).before 3 t d = blk m c 3 t :=
  ((dats m 0 c).before_in_eq_fetched 3 rfl (fun _ => rfl) (fun _ _ _ => rfl) (fun t => by rw [after3]; unfold Dat.blockOf blk; rw [A_eq]; try rfl) t d).trans
    (by unfold Dat.fetched Dat.blockOf blk; rw [A_eq]; try rfl)
theorem before4 (c : Dev nD) (t : Fin cfg0.N) (d) : (dats m 0 c).before 4 t d = blk m c 4 t :=
  ((dats m 0 c).before_in_eq_fetched 4 rfl (fun _ => rfl) (fun _ _ _ => rfl) (fun t => by rw [after4]; unfold Dat.blockOf blk; rw [A_eq]; try rfl) t d).trans
    (by unfold Dat.fetched Dat.blockOf blk; rw [A_eq]; try rfl)
theorem before5 (c : Dev nD) (t : Fin cfg0.N) (d) : (dats m 0 c).before 5 t d = blk m c 5 t :=
  ((dats m 0 c).before_in_eq_fetched 5 rfl (fun _ => rfl) (fun _ _ _ => rfl) (fun t => by rw [after5]; unfold Dat.blockOf blk; rw [A_eq]; try rfl) t d).trans
    (by unfold Dat.fetched Dat.blockOf blk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; what is held between
    points passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _ (blk m c 0 t) (blk m c 1 t) (blk m c 2 t) (blk m c 3 t) (blk m c 4 t) (blk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dats (F := F) m 0 c) (defs₀ (F := F)) Variants.none () Set.univ := fun t => by
  rw [bigSep_W0, bigSep_W0]
  exact sound_body m c t

/-! ## The arrays at the region's entry -/

/-- The distinct buffers behind the windows' arrays, listed: `k`, the three weight arrays and the result. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v12) ↦{fullShare} V m c main_v12)
          ∗ (((c : Thread nD τ).loc main_v13) ↦{fullShare} V m c main_v13) ∗ (((c : Thread nD τ).loc main_v14) ↦{fullShare} V m c main_v14)
          ∗ (((c : Thread nD τ).loc main_v15) ↦{fullShare} V m c main_v15)) := by
  unfold Pipeline.arrBufs
  exact bigSep_eq_bigSepL_of_eq [main_arg0, main_v12, main_v13, main_v14, main_v15] (by decide) (by decide) _

/-- The distinct buffers behind the windows' arrays, each whole at the full share, make the region's arrays: `k`'s full
    share is a half and two quarters, one part per window reading it; the other four arrays are one window's each. -/
theorem entry_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  have e0 : (cfg0.win 0).arr.view.set = Finset.univ := (arr_whole0 0).set_eq_univ
  have e1 : (cfg0.win 1).arr.view.set = Finset.univ := (arr_whole0 1).set_eq_univ
  have e2 : (cfg0.win 2).arr.view.set = Finset.univ := (arr_whole0 2).set_eq_univ
  have e3 : (cfg0.win 3).arr.view.set = Finset.univ := (arr_whole0 3).set_eq_univ
  have e4 : (cfg0.win 4).arr.view.set = Finset.univ := (arr_whole0 4).set_eq_univ
  have e5 : (cfg0.win 5).arr.view.set = Finset.univ := (arr_whole0 5).set_eq_univ
  have e6 : (cfg0.win 6).arr.view.set = Finset.univ := (arr_whole0 6).set_eq_univ
  simp only [e0, e1, e2, e3, e4, e5, e6]
  iintro ⟨Hk, H12, H13, H14, H15⟩
  ihave ⟨Hl, Hr⟩ := (pointsTo_share (PosShare.mem_left_op_right fullShare)).1 $$ Hk
  ihave ⟨Hrl, Hrr⟩ := (pointsTo_share (PosShare.mem_left_op_right fullShare.right)).1 $$ Hr
  isplitl [Hl]; · iexact Hl
  isplitl [Hrl]; · iexact Hrl
  isplitl [Hrr]; · iexact Hrr
  isplitl [H12]; · iexact H12
  isplitl [H13]; · iexact H13
  isplitl [H14]; · iexact H14
  iexact H15

/-! ## The run and the frame -/

/-- Between points the region holds only the scoped buffers that are no staging buffer. -/
theorem Phi_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

set_option backward.isDefEq.respectTransparency.types false in
/-- At the compiled mesh, from any memory with zero counters: every weakly fair execution of @main terminates, and in
    every final state each array of the region holds what the write-backs make of it and every other unscoped buffer
    what it held when the region was entered. -/
theorem run_main : θ_run defs (onTc (τ := τ) (main (F := F))) (s₀ m ρ) (Pipeline.FramePost cfgs (dats m) 0 (V m)) := by
  classical
  refine Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := entry_split m)
    (X := fun _ => iprop(emp)) (Y := fun _ => iprop(emp))
    (Z := fun c => Pipeline.unscopedRest (Ix := Unit) (Name := ℕ) (U := UR sig nD τ) (Lvl := ℕ) spec0 c (V m c))
    (hX := ?hX) (hin := ?hin) (hout := ?hout)
    (QY := fun c s => ∀ b ∈ Pipeline.restRefs sig spec0, s.mem ((c.tc : Thread nD τ).loc b) = V m c b)
    (hY := ?hY) (hQ := fun s h => h)
  case hX =>
    intro c
    iintro H
    isplitr; · iempintro
    iexact H
  case hin =>
    intro c
    rw [Phi_eq]
    iintro ⟨-, H⟩
    iexact H
  case hout =>
    intro c
    rw [Phi_eq]
    iintro H
    isplitr; · iempintro
    iexact H
  case hY =>
    intro c s'
    iintro ⟨-, HU, HSI⟩
    unfold Pipeline.unscopedRest
    imodintro
    iapply (pointsTo_read_all (Pipeline.restRefs sig spec0) (fun b => (c.tc : Thread nD τ).loc b) (V m c) s')
    isplitl [HU] <;> iassumption

/-- THE FRAME: every weakly fair execution of @main terminates, nothing faulting, and both arguments end as launched:
    `k` is an input of the region (what an input's array holds never changes) that no host operation writes, and the
    mask bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 rfl (by decide))).trans (V_main_arg1 m c)⟩) (run_main m ρ)

end Cert.KernelIdeal.Region

end
-- ==== Proof.Payload.lean ====
/-
  The value the kernel's body stores, read at one index.

  The body holds a tile of four channels and four frames, one frame before the tile and one frame after it for each
  of the four channels, and the three weight blocks of the tile's four frames. It lays the tile's frames 0..2 behind
  the frame before (so that position j holds the frame one step back from frame j), lays the frame after behind the
  tile's frames 1..3 (so that position j holds the frame one step forward), spreads each weight over the four
  channels, and combines them: at channel a, frame j, row x, column y the stored value is

      (w3(j,x,y) · 1/2) · prev  +  w4(j,x,y) · tile(a,j,x,y)  +  (w5(j,x,y) · 1/4) · next,

  where prev is the frame before the tile when j = 0 and the tile's frame j − 1 otherwise, and next is the frame after
  the tile when j = 3 and the tile's frame j + 1 otherwise. Every step is a re-indexing or an elementwise operation,
  so the proof reads each one at an index: the casts by their row-major positions, the slices and the concatenations
  by their coordinates along the frame axis, the spread of a weight by dropping the channel coordinate.
-/
import proofs.«124033_j24472723653316_1_alg».proof.Proof.Gen.KernelIdeal.Skeleton
import proofs.«124033_j24472723653316_1_alg».proof.Proof.Spec
import Idealize.ShloMosaic.Lib.ValueIdx
import Idealize.ShloMosaic.Lib.Pipeline.Value
import Idealize.ShloMosaic.Lib.ValueLayout

noncomputable section

namespace Cert.KernelIdeal.Payload

open Idealize.ShloMosaic Idealize.ShloMosaic.ValueIdx Cert.KernelIdeal

variable {α : Type}

/-! ## One step along the tile's four frames -/

/-- One frame back inside the tile, staying at frame 0. -/
def before (j : Fin 4) : Fin 4 := ⟨j.val - 1, by omega⟩
/-- One frame forward inside the tile, staying at frame 3. -/
def after (j : Fin 4) : Fin 4 := ⟨min (j.val + 1) 3, by omega⟩

/-- Away from frame 0 the step back is the predecessor. -/
theorem before_val (j : Fin 4) : (before j).val = j.val - 1 := rfl
/-- Away from frame 3 the step forward is the successor. -/
theorem after_val (j : Fin 4) (h : j.val ≠ 3) : (after j).val = j.val + 1 := by
  show min (j.val + 1) 3 = j.val + 1
  omega

/-! ## The casts between the block shapes, at coordinates -/

/-- The tile [1, 4, 4, 256, 256] seen as [4, 4, 256, 256]: the leading unit axis dropped. -/
theorem tile_apply (v : S1x4x4x256x256.Idx → α) (h : S1x4x4x256x256.ShapeCasts S4x4x256x256) (a j : Fin 4) (x y : Fin 256) :
    shapeCast S4x4x256x256 v h (ix4 a j x y) = v (ix5 (0 : Fin 1) a j x y) :=
  shapeCast_apply v h _ _ (by
    rw [Shape.rowMajor_val_five, Shape.rowMajor_val_four]
    show (((0 * 4 + a.val) * 4 + j.val) * 256 + x.val) * 256 + y.val = ((a.val * 4 + j.val) * 256 + x.val) * 256 + y.val
    omega)

/-- A [4, 4, 256, 256] value seen as the block [1, 4, 4, 256, 256]: the leading unit axis put back. -/
theorem untile_apply (v : S4x4x256x256.Idx → α) (h : S4x4x256x256.ShapeCasts S1x4x4x256x256) (u : Fin 1) (a j : Fin 4)
    (x y : Fin 256) : shapeCast S1x4x4x256x256 v h (ix5 u a j x y) = v (ix4 a j x y) :=
  shapeCast_apply v h _ _ (by
    have hu : u.val = 0 := by omega
    rw [Shape.rowMajor_val_five, Shape.rowMajor_val_four]
    show ((a.val * 4 + j.val) * 256 + x.val) * 256 + y.val = (((u.val * 4 + a.val) * 4 + j.val) * 256 + x.val) * 256 + y.val
    omega)

/-- A one-frame block [1, 4, 1, 256, 256] seen as [4, 256, 256]: both unit axes dropped. -/
theorem halo_drop_apply (v : S1x4x1x256x256.Idx → α) (h : S1x4x1x256x256.ShapeCasts S4x256x256) (a : Fin 4) (x y : Fin 256) :
    shapeCast S4x256x256 v h (ix3 a x y) = v (ix5 (0 : Fin 1) a (0 : Fin 1) x y) :=
  shapeCast_apply v h _ _ (by
    rw [Shape.rowMajor_val_five, Shape.rowMajor_val_three]
    show ((((0 * 4 + a.val) * 1 + 0) * 256 + x.val) * 256 + y.val) = (a.val * 256 + x.val) * 256 + y.val
    omega)

/-- A [4, 256, 256] value seen as one frame [4, 1, 256, 256] of four channels. -/
theorem halo_add_apply (v : S4x256x256.Idx → α) (h : S4x256x256.ShapeCasts S4x1x256x256) (a : Fin 4) (u : Fin 1) (x y : Fin 256) :
    shapeCast S4x1x256x256 v h (ix4 a u x y) = v (ix3 a x y) :=
  shapeCast_apply v h _ _ (by
    have hu : u.val = 0 := by omega
    rw [Shape.rowMajor_val_four, Shape.rowMajor_val_three]
    show (a.val * 256 + x.val) * 256 + y.val = ((a.val * 1 + u.val) * 256 + x.val) * 256 + y.val
    omega)

/-- A weight block [4, 256, 256] (frame, row, column) spread over the four channels: at (a, j, x, y) it reads (j, x, y). -/
theorem spread_apply (v : S1x4x256x256.Idx → α) (h : S1x4x256x256.Broadcasts S4x4x256x256) (a j : Fin 4) (x y : Fin 256) :
    broadcastTo S4x4x256x256 v h (ix4 a j x y) = v (ix4 (0 : Fin 1) j x y) :=
  broadcastTo_apply v h _ _ (fun b => match b with
    | ⟨0, _⟩ => rfl
    | ⟨1, _⟩ => rfl
    | ⟨2, _⟩ => rfl
    | ⟨3, _⟩ => rfl)

/-! ## The two slices of the tile along the frame axis -/

/-- The tile's frames 0..2: position i is frame i. -/
theorem front_apply (v : S4x4x256x256.Idx → α) (h : S4x4x256x256.Slices ![0, 0, 0, 0] S4x3x256x256) (a : Fin 4) (i : Fin 3)
    (x y : Fin 256) :
    extractStridedSlice S4x3x256x256 ![0, 0, 0, 0] v h (ix4 a i x y) = v (ix4 a (⟨i.val, by omega⟩ : Fin 4) x y) :=
  slice4_axis1_apply 0 v h a i x y _ (by show i.val = 0 + i.val; omega)

/-- The tile's frames 1..3: position i is frame i + 1. -/
theorem rear_apply (v : S4x4x256x256.Idx → α) (h : S4x4x256x256.Slices ![0, 1, 0, 0] S4x3x256x256) (a : Fin 4) (i : Fin 3)
    (x y : Fin 256) :
    extractStridedSlice S4x3x256x256 ![0, 1, 0, 0] v h (ix4 a i x y) = v (ix4 a (⟨i.val + 1, by omega⟩ : Fin 4) x y) :=
  slice4_axis1_apply 1 v h a i x y _ (by show i.val + 1 = 1 + i.val; omega)

/-! ## The two concatenations along the frame axis -/

/-- One frame p laid in front of three frames q: position 0 is p, position j > 0 is q at j − 1. -/
theorem lead_apply (p : S4x1x256x256.Idx → α) (q : S4x3x256x256.Idx → α)
    (h : Shape.Concatenates [S4x1x256x256, S4x3x256x256] S4x4x256x256 1) (a j : Fin 4) (x y : Fin 256) :
    concatenate S4x4x256x256 1 [⟨S4x1x256x256, p⟩, ⟨S4x3x256x256, q⟩] h (ix4 a j x y)
      = if j.val = 0 then p (ix4 a (0 : Fin 1) x y) else q (ix4 a (⟨j.val - 1, by omega⟩ : Fin 3) x y) := by
  split
  · next hj =>
    exact concatenate_pair_apply_left (t := S4x4x256x256) (s₁ := S4x1x256x256) (s₂ := S4x3x256x256) 1 p q h _ rfl _
      (fun b => match b with
        | ⟨0, _⟩ => rfl
        | ⟨1, _⟩ => by show (0 : ℕ) = j.val; omega
        | ⟨2, _⟩ => rfl
        | ⟨3, _⟩ => rfl)
  · next hj =>
    exact concatenate_pair_apply_right (t := S4x4x256x256) (s₁ := S4x1x256x256) (s₂ := S4x3x256x256) 1 p q h _ rfl rfl _
      (fun b hb => match b, hb with
        | ⟨0, _⟩, _ => rfl
        | ⟨1, _⟩, hb => absurd rfl hb
        | ⟨2, _⟩, _ => rfl
        | ⟨3, _⟩, _ => rfl)
      (by show (j.val - 1) + 1 = j.val; omega)

/-- Three frames q followed by one frame p: position 3 is p, position j < 3 is q at j. -/
theorem trail_apply (q : S4x3x256x256.Idx → α) (p : S4x1x256x256.Idx → α)
    (h : Shape.Concatenates [S4x3x256x256, S4x1x256x256] S4x4x256x256 1) (a j : Fin 4) (x y : Fin 256) :
    concatenate S4x4x256x256 1 [⟨S4x3x256x256, q⟩, ⟨S4x1x256x256, p⟩] h (ix4 a j x y)
      = if j.val = 3 then p (ix4 a (0 : Fin 1) x y) else q (ix4 a (⟨min j.val 2, by omega⟩ : Fin 3) x y) := by
  split
  · next hj =>
    exact concatenate_pair_apply_right (t := S4x4x256x256) (s₁ := S4x3x256x256) (s₂ := S4x1x256x256) 1 q p h _ rfl rfl _
      (fun b hb => match b, hb with
        | ⟨0, _⟩, _ => rfl
        | ⟨1, _⟩, hb => absurd rfl hb
        | ⟨2, _⟩, _ => rfl
        | ⟨3, _⟩, _ => rfl)
      (by show (0 : ℕ) + 3 = j.val; omega)
  · next hj =>
    exact concatenate_pair_apply_left (t := S4x4x256x256) (s₁ := S4x3x256x256) (s₂ := S4x1x256x256) 1 q p h _ rfl _
      (fun b => match b with
        | ⟨0, _⟩ => rfl
        | ⟨1, _⟩ => by show min j.val 2 = j.val; omega
        | ⟨2, _⟩ => rfl
        | ⟨3, _⟩ => rfl)

/-! ## The weights and the neighbouring frames -/

/-- A weight block cast to itself and then given a leading unit axis: at (u, j, x, y) it reads (j, x, y). -/
theorem weight_apply (v : S4x256x256.Idx → α) (h0 : S4x256x256.ShapeCasts S4x256x256) (h : S4x256x256.ShapeCasts S1x4x256x256)
    (u : Fin 1) (j : Fin 4) (x y : Fin 256) :
    shapeCast S1x4x256x256 (shapeCast S4x256x256 v h0) h (ix4 u j x y) = v (ix3 j x y) := by
  rw [shapeCast_self]
  exact shapeCast_abc_1abc_apply v h u j x y

/-- A neighbouring frame, loaded as [1, 4, 1, 256, 256] and brought to the shape [4, 1, 256, 256] of one frame of
    four channels: at (a, u, x, y) it reads the loaded block at (0, a, 0, x, y). -/
theorem halo_apply (v : S1x4x1x256x256.Idx → α) (h1 : S1x4x1x256x256.ShapeCasts S4x256x256) (h2 : S4x256x256.ShapeCasts S4x1x256x256)
    (a : Fin 4) (u : Fin 1) (x y : Fin 256) :
    shapeCast S4x1x256x256 (shapeCast S4x256x256 v h1) h2 (ix4 a u x y) = v (ix5 (0 : Fin 1) a (0 : Fin 1) x y) := by
  rw [halo_add_apply, halo_drop_apply]

/-! ## The stored value at an index -/

/-- The value the body stores, at channel a, frame j, row x, column y of the tile: the weighted sum of the frame one
    step back, the frame itself and the frame one step forward, in the grouping ((· + ·) + ·). One step back from
    frame 0 is the frame loaded before the tile, one step forward from frame 3 the frame loaded after it; inside the
    tile the steps are before j and after j. The two scalar weights stay the words the program carries. -/
theorem pay_apply (x0 : Vec Ideal S1x4x4x256x256 .f32) (x1 x2 : Vec Ideal S1x4x1x256x256 .f32)
    (x3 x4 x5 : Vec Ideal S4x256x256 .f32) (a j : Fin 4) (x y : Fin 256) :
    Gen.k0_pay1 (Gen.k0_pay3 x0 x1 x3 x4) (Gen.k0_pay4 x0 x2 x5) (ix5 (0 : Fin 1) a j x y)
      = ((x3 (ix3 j x y) * Cert.DataShare.half)
            * (if j.val = 0 then x1 (ix5 (0 : Fin 1) a (0 : Fin 1) x y) else x0 (ix5 (0 : Fin 1) a (before j) x y))
          + x4 (ix3 j x y) * x0 (ix5 (0 : Fin 1) a j x y))
        + (x5 (ix3 j x y) * Cert.DataShare.quarter)
            * (if j.val = 3 then x2 (ix5 (0 : Fin 1) a (0 : Fin 1) x y) else x0 (ix5 (0 : Fin 1) a (after j) x y)) := by
  unfold Gen.k0_pay1 Gen.k0_pay3 Gen.k0_pay4 Gen.k0_pay2
  dsimp only
  -- the stored block is the sum with its leading unit axis put back; under it every operation is read at (a, j, x, y)
  rw [untile_apply]
  simp only [addf_apply, mulf_apply, spread_apply, weight_apply, broadcast_apply, lead_apply, trail_apply, halo_apply,
    front_apply, rear_apply, tile_apply]
  -- frames 1..3 of the tile at position min j 2 are frame min j 2 + 1, which is one step forward from j
  have e : (⟨min j.val 2 + 1, by omega⟩ : Fin 4) = after j :=
    Fin.ext (by show min j.val 2 + 1 = min (j.val + 1) 3; omega)
  rw [e]
  rfl

end Cert.KernelIdeal.Payload

end
-- ==== Proof.Final.lean ====
/-
  From the blocks the region writes back to the whole result array.

  The grid has 16 x 8 points: a point's first coordinate names a group of four frames, its second a group of four
  channels. At a point the region stages the tile of those four channels and four frames, the frame just before the
  group and the frame just after it (each clipped to the array's frames 0..63, so that before the first group it is
  frame 0 and after the last group frame 63), and the three weight blocks of the group's frames; what it writes back
  is the body's stored value. Read at channel a and frame j of the tile that value is the data-sharing step at channel
  4·(channel group) + a and frame T = 4·(frame group) + j with the end frames repeated: the frame one step back inside
  the tile, or the frame before the group when j = 0, is frame T − 1 staying at 0, and the frame one step forward, or
  the frame after the group when j = 3, is frame T + 1 staying at 63. The 128 blocks tile the result array, so after
  the run the array is that step of the arrays the region found.
-/
import proofs.«124033_j24472723653316_1_alg».proof.Proof.Run
import proofs.«124033_j24472723653316_1_alg».proof.Proof.Payload
import proofs.«124033_j24472723653316_1_alg».proof.Proof.Spec
import Idealize.ShloMosaic.Lib.Pipeline.Value

set_option maxRecDepth 16384

noncomputable section

namespace Cert.KernelIdeal.Final

open Cert.KernelIdeal Cert.KernelIdeal.Gen Cert.KernelIdeal.Region Cert.KernelIdeal.Payload Cert.DataShare
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where each window's block sits, decided over the grid -/

/-- The result's block index: zero off the channel and frame axes, a channel group below 8, a frame group below 16. -/
theorem out_idx : ∀ t : Fin cfg0.N, win0_6.index t (0 : Fin 5) = 0 ∧ win0_6.index t (1 : Fin 5) ≤ 7
    ∧ win0_6.index t (2 : Fin 5) ≤ 15 ∧ win0_6.index t (3 : Fin 5) = 0 ∧ win0_6.index t (4 : Fin 5) = 0 :=
  (by decide +kernel : ∀ t : Fin grid0.N, _)

/-- The tile's block index is the result's. -/
theorem tile_idx : ∀ t : Fin cfg0.N, win0_0.index t (0 : Fin 5) = win0_6.index t (0 : Fin 5)
    ∧ win0_0.index t (1 : Fin 5) = win0_6.index t (1 : Fin 5) ∧ win0_0.index t (2 : Fin 5) = win0_6.index t (2 : Fin 5)
    ∧ win0_0.index t (3 : Fin 5) = win0_6.index t (3 : Fin 5) ∧ win0_0.index t (4 : Fin 5) = win0_6.index t (4 : Fin 5) :=
  (by decide +kernel : ∀ t : Fin grid0.N, _)

/-- The frame before the group: the same channel group, frame 4·(frame group) − 1, which at group 0 is frame 0. -/
theorem prev_idx : ∀ t : Fin cfg0.N, win0_1.index t (0 : Fin 5) = 0
    ∧ win0_1.index t (1 : Fin 5) = win0_6.index t (1 : Fin 5) ∧ win0_1.index t (2 : Fin 5) = 4 * win0_6.index t (2 : Fin 5) - 1
    ∧ win0_1.index t (3 : Fin 5) = 0 ∧ win0_1.index t (4 : Fin 5) = 0 :=
  (by decide +kernel : ∀ t : Fin grid0.N, _)

/-- The frame after the group: the same channel group, frame 4·(frame group) + 4, which at group 15 is frame 63. -/
theorem next_idx : ∀ t : Fin cfg0.N, win0_2.index t (0 : Fin 5) = 0
    ∧ win0_2.index t (1 : Fin 5) = win0_6.index t (1 : Fin 5) ∧ win0_2.index t (2 : Fin 5) = min (4 * win0_6.index t (2 : Fin 5) + 4) 63
    ∧ win0_2.index t (3 : Fin 5) = 0 ∧ win0_2.index t (4 : Fin 5) = 0 :=
  (by decide +kernel : ∀ t : Fin grid0.N, _)

/-- The three weight blocks: the frame group, whole rows and columns. -/
theorem weight_idx : ∀ t : Fin cfg0.N, win0_3.index t (0 : Fin 3) = win0_6.index t (2 : Fin 5)
    ∧ win0_3.index t (1 : Fin 3) = 0 ∧ win0_3.index t (2 : Fin 3) = 0
    ∧ win0_4.index t (0 : Fin 3) = win0_6.index t (2 : Fin 5) ∧ win0_4.index t (1 : Fin 3) = 0 ∧ win0_4.index t (2 : Fin 3) = 0
    ∧ win0_5.index t (0 : Fin 3) = win0_6.index t (2 : Fin 5) ∧ win0_5.index t (1 : Fin 3) = 0 ∧ win0_5.index t (2 : Fin 3) = 0 :=
  (by decide +kernel : ∀ t : Fin grid0.N, _)

/-- Every channel group and frame group is some point's. -/
theorem out_onto : ∀ (q1 : Fin 8) (q2 : Fin 16), ∃ t : Fin cfg0.N, win0_6.index t = ![0, q1.val, q2.val, 0, 0] :=
  (by decide +kernel : ∀ (q1 : Fin 8) (q2 : Fin 16), ∃ t : Fin grid0.N, win0_6.index t = ![0, q1.val, q2.val, 0, 0])

/-! ## A tile position's place in the arrays -/

/-- The channel of tile channel a at point t. -/
def chan (t : Fin cfg0.N) (a : Fin 4) : Fin 32 :=
  ⟨win0_6.index t (1 : Fin 5) * 4 + a.val, by have h := (out_idx t).2.1; omega⟩
/-- The frame of tile frame j at point t. -/
def frame (t : Fin cfg0.N) (j : Fin 4) : Fin 64 :=
  ⟨win0_6.index t (2 : Fin 5) * 4 + j.val, by have h := (out_idx t).2.2.1; omega⟩

/-- Inside the tile, one step back is one frame back. -/
theorem back_frame (t : Fin cfg0.N) (j : Fin 4) (h : j.val ≠ 0) : back (frame t j) = frame t (before j) :=
  Fin.ext (by
    show win0_6.index t (2 : Fin 5) * 4 + j.val - 1 = win0_6.index t (2 : Fin 5) * 4 + (j.val - 1)
    omega)
/-- Inside the tile, one step forward is one frame forward. -/
theorem fwd_frame (t : Fin cfg0.N) (j : Fin 4) (h : j.val ≠ 3) : fwd (frame t j) = frame t (after j) :=
  Fin.ext (by
    have h2 := (out_idx t).2.2.1
    show min (win0_6.index t (2 : Fin 5) * 4 + j.val + 1) 63 = win0_6.index t (2 : Fin 5) * 4 + min (j.val + 1) 3
    omega)

/-! ## The blocks, read at coordinates -/

/-- Where the result's block puts tile position (a, j, x, y). -/
theorem out_emb (t : Fin cfg0.N) (a j : Fin 4) (x y : Fin 256) :
    ((cfg0.win 6).blk t).view.emb (ix5 (0 : Fin 1) a j x y) = ix5 (0 : Fin 1) (chan t a) (frame t j) x y := by
  obtain ⟨e0, -, -, e3, e4⟩ := out_idx t
  funext ax; apply Fin.ext
  match ax with
  | ⟨0, _⟩ => show win0_6.index t (0 : Fin 5) * 1 + 1 * 0 = 0; omega
  | ⟨1, _⟩ => show win0_6.index t (1 : Fin 5) * 4 + 1 * a.val = win0_6.index t (1 : Fin 5) * 4 + a.val; omega
  | ⟨2, _⟩ => show win0_6.index t (2 : Fin 5) * 4 + 1 * j.val = win0_6.index t (2 : Fin 5) * 4 + j.val; omega
  | ⟨3, _⟩ => show win0_6.index t (3 : Fin 5) * 256 + 1 * x.val = x.val; omega
  | ⟨4, _⟩ => show win0_6.index t (4 : Fin 5) * 256 + 1 * y.val = y.val; omega

/-- The tile at (a, j, x, y) is the array at the tile position's channel and frame. -/
theorem tile_read (c : Dev nD) (t : Fin cfg0.N) (a j : Fin 4) (x y : Fin 256) :
    blk m c 0 t (ix5 (0 : Fin 1) a j x y) = V m c main_arg0 (ix5 (0 : Fin 1) (chan t a) (frame t j) x y) := by
  obtain ⟨e0, e1, e2, e3, e4⟩ := tile_idx t
  obtain ⟨o0, -, -, o3, o4⟩ := out_idx t
  show V m c main_arg0 (((cfg0.win 0).blk t).view.emb (ix5 (0 : Fin 1) a j x y)) = V m c main_arg0 _
  refine congrArg _ (funext fun ax => Fin.ext ?_)
  match ax with
  | ⟨0, _⟩ => show win0_0.index t (0 : Fin 5) * 1 + 1 * 0 = 0; omega
  | ⟨1, _⟩ => show win0_0.index t (1 : Fin 5) * 4 + 1 * a.val = win0_6.index t (1 : Fin 5) * 4 + a.val; omega
  | ⟨2, _⟩ => show win0_0.index t (2 : Fin 5) * 4 + 1 * j.val = win0_6.index t (2 : Fin 5) * 4 + j.val; omega
  | ⟨3, _⟩ => show win0_0.index t (3 : Fin 5) * 256 + 1 * x.val = x.val; omega
  | ⟨4, _⟩ => show win0_0.index t (4 : Fin 5) * 256 + 1 * y.val = y.val; omega

/-- The frame before the group is one frame back from the tile's frame 0, staying at frame 0 of the array. -/
theorem prev_read (c : Dev nD) (t : Fin cfg0.N) (a : Fin 4) (x y : Fin 256) :
    blk m c 1 t (ix5 (0 : Fin 1) a (0 : Fin 1) x y) = V m c main_arg0 (ix5 (0 : Fin 1) (chan t a) (back (frame t 0)) x y) := by
  obtain ⟨e0, e1, e2, e3, e4⟩ := prev_idx t
  show V m c main_arg0 (((cfg0.win 1).blk t).view.emb (ix5 (0 : Fin 1) a (0 : Fin 1) x y)) = V m c main_arg0 _
  refine congrArg _ (funext fun ax => Fin.ext ?_)
  match ax with
  | ⟨0, _⟩ => show win0_1.index t (0 : Fin 5) * 1 + 1 * 0 = 0; omega
  | ⟨1, _⟩ => show win0_1.index t (1 : Fin 5) * 4 + 1 * a.val = win0_6.index t (1 : Fin 5) * 4 + a.val; omega
  | ⟨2, _⟩ => show win0_1.index t (2 : Fin 5) * 1 + 1 * 0 = win0_6.index t (2 : Fin 5) * 4 + 0 - 1; omega
  | ⟨3, _⟩ => show win0_1.index t (3 : Fin 5) * 256 + 1 * x.val = x.val; omega
  | ⟨4, _⟩ => show win0_1.index t (4 : Fin 5) * 256 + 1 * y.val = y.val; omega

/-- The frame after the group is one frame forward from the tile's frame 3, staying at frame 63 of the array. -/
theorem next_read (c : Dev nD) (t : Fin cfg0.N) (a : Fin 4) (x y : Fin 256) :
    blk m c 2 t (ix5 (0 : Fin 1) a (0 : Fin 1) x y) = V m c main_arg0 (ix5 (0 : Fin 1) (chan t a) (fwd (frame t 3)) x y) := by
  obtain ⟨e0, e1, e2, e3, e4⟩ := next_idx t
  show V m c main_arg0 (((cfg0.win 2).blk t).view.emb (ix5 (0 : Fin 1) a (0 : Fin 1) x y)) = V m c main_arg0 _
  refine congrArg _ (funext fun ax => Fin.ext ?_)
  match ax with
  | ⟨0, _⟩ => show win0_2.index t (0 : Fin 5) * 1 + 1 * 0 = 0; omega
  | ⟨1, _⟩ => show win0_2.index t (1 : Fin 5) * 4 + 1 * a.val = win0_6.index t (1 : Fin 5) * 4 + a.val; omega
  | ⟨2, _⟩ => show win0_2.index t (2 : Fin 5) * 1 + 1 * 0 = min (win0_6.index t (2 : Fin 5) * 4 + 3 + 1) 63; omega
  | ⟨3, _⟩ => show win0_2.index t (3 : Fin 5) * 256 + 1 * x.val = x.val; omega
  | ⟨4, _⟩ => show win0_2.index t (4 : Fin 5) * 256 + 1 * y.val = y.val; omega

/-- A weight block at (j, x, y) is its array at the tile frame's frame. -/
theorem weight3_read (c : Dev nD) (t : Fin cfg0.N) (j : Fin 4) (x y : Fin 256) :
    blk m c 3 t (ix3 j x y) = V m c main_v12 (ix3 (frame t j) x y) := by
  obtain ⟨e0, e1, e2, -⟩ := weight_idx t
  show V m c main_v12 (((cfg0.win 3).blk t).view.emb (ix3 j x y)) = V m c main_v12 _
  refine congrArg _ (funext fun ax => Fin.ext ?_)
  match ax with
  | ⟨0, _⟩ => show win0_3.index t (0 : Fin 3) * 4 + 1 * j.val = win0_6.index t (2 : Fin 5) * 4 + j.val; omega
  | ⟨1, _⟩ => show win0_3.index t (1 : Fin 3) * 256 + 1 * x.val = x.val; omega
  | ⟨2, _⟩ => show win0_3.index t (2 : Fin 3) * 256 + 1 * y.val = y.val; omega
theorem weight4_read (c : Dev nD) (t : Fin cfg0.N) (j : Fin 4) (x y : Fin 256) :
    blk m c 4 t (ix3 j x y) = V m c main_v13 (ix3 (frame t j) x y) := by
  obtain ⟨-, -, -, e0, e1, e2, -⟩ := weight_idx t
  show V m c main_v13 (((cfg0.win 4).blk t).view.emb (ix3 j x y)) = V m c main_v13 _
  refine congrArg _ (funext fun ax => Fin.ext ?_)
  match ax with
  | ⟨0, _⟩ => show win0_4.index t (0 : Fin 3) * 4 + 1 * j.val = win0_6.index t (2 : Fin 5) * 4 + j.val; omega
  | ⟨1, _⟩ => show win0_4.index t (1 : Fin 3) * 256 + 1 * x.val = x.val; omega
  | ⟨2, _⟩ => show win0_4.index t (2 : Fin 3) * 256 + 1 * y.val = y.val; omega
theorem weight5_read (c : Dev nD) (t : Fin cfg0.N) (j : Fin 4) (x y : Fin 256) :
    blk m c 5 t (ix3 j x y) = V m c main_v14 (ix3 (frame t j) x y) := by
  obtain ⟨-, -, -, -, -, -, e0, e1, e2⟩ := weight_idx t
  show V m c main_v14 (((cfg0.win 5).blk t).view.emb (ix3 j x y)) = V m c main_v14 _
  refine congrArg _ (funext fun ax => Fin.ext ?_)
  match ax with
  | ⟨0, _⟩ => show win0_5.index t (0 : Fin 3) * 4 + 1 * j.val = win0_6.index t (2 : Fin 5) * 4 + j.val; omega
  | ⟨1, _⟩ => show win0_5.index t (1 : Fin 3) * 256 + 1 * x.val = x.val; omega
  | ⟨2, _⟩ => show win0_5.index t (2 : Fin 3) * 256 + 1 * y.val = y.val; omega

/-! ## What a point writes back -/

/-- The body's stored value at point t, read at tile position (a, j, x, y), is the step with the end frames repeated at
    the position's channel and frame: inside the tile the neighbouring frames are the tile's own, at the tile's two
    ends they are the frames staged before and after the group, which are the array's frames one step back and one
    step forward, clipped as the step clips them. -/
theorem stored_at (c : Dev nD) (t : Fin cfg0.N) (a j : Fin 4) (x y : Fin 256) :
    k0_pay1 (k0_pay3 (blk m c 0 t) (blk m c 1 t) (blk m c 3 t) (blk m c 4 t)) (k0_pay4 (blk m c 0 t) (blk m c 2 t) (blk m c 5 t))
        (ix5 (0 : Fin 1) a j x y)
      = shareAt (prevStay (V m c main_arg0)) (nextStay (V m c main_arg0)) (V m c main_arg0) (V m c main_v12) (V m c main_v13)
          (V m c main_v14) (chan t a) (frame t j) x y := by
  rw [pay_apply]
  simp only [tile_read, prev_read, next_read, weight3_read, weight4_read, weight5_read]
  unfold shareAt prevStay nextStay
  have hp : (if j.val = 0 then V m c main_arg0 (ix5 (0 : Fin 1) (chan t a) (back (frame t 0)) x y)
      else V m c main_arg0 (ix5 (0 : Fin 1) (chan t a) (frame t (before j)) x y))
      = V m c main_arg0 (ix5 (0 : Fin 1) (chan t a) (back (frame t j)) x y) := by
    by_cases h : j.val = 0
    · obtain rfl : j = 0 := Fin.ext h
      rw [if_pos h]
    · rw [if_neg h, back_frame t j h]
  have hn : (if j.val = 3 then V m c main_arg0 (ix5 (0 : Fin 1) (chan t a) (fwd (frame t 3)) x y)
      else V m c main_arg0 (ix5 (0 : Fin 1) (chan t a) (frame t (after j)) x y))
      = V m c main_arg0 (ix5 (0 : Fin 1) (chan t a) (fwd (frame t j)) x y) := by
    by_cases h : j.val = 3
    · obtain rfl : j = 3 := Fin.ext h
      rw [if_pos h]
    · rw [if_neg h, fwd_frame t j h]
  rw [hp, hn]

theorem zero5 : (![0, 0, 0, 0, 0] : Fin 5 → Nat) = fun _ => 0 := funext fun a => by fin_cases a <;> rfl
theorem zero3 : (![0, 0, 0] : Fin 3 → Nat) = fun _ => 0 := funext fun a => by fin_cases a <;> rfl

/-- What point t writes back is block t of the step of the arrays the region found. -/
theorem flushed_eq (c : Dev nD) (t : Fin cfg0.N) :
    (dats m 0 c).flushed 6 t = ((cfg0.win 6).blk t).view.read (Elt Ideal)
      (shareStay (V m c main_arg0) (V m c main_v12) (V m c main_v13) (V m c main_v14)) := by
  show (cfg0.win 6).cut (grid0.coords t) ((dats m 0 c).after 6 t) = _
  rw [after6]
  unfold stored
  rw [View.canon_unit_zero zero5]
  simp only [View.ld_unit_zero (S := S1x4x4x256x256) zero5, View.ld_unit_zero (S := S1x4x1x256x256) zero5,
    View.ld_unit_zero (S := S4x256x256) zero3]
  funext i
  obtain ⟨u, a, j, x, y, rfl⟩ : ∃ (u : Fin 1) (a j : Fin 4) (x y : Fin 256), i = ix5 u a j x y :=
    ⟨i 0, i 1, i 2, i 3, i 4, eq_ix5 i⟩
  obtain rfl : u = 0 := Subsingleton.elim _ _
  show k0_pay1 (k0_pay3 (blk m c 0 t) (blk m c 1 t) (blk m c 3 t) (blk m c 4 t)) (k0_pay4 (blk m c 0 t) (blk m c 2 t) (blk m c 5 t))
      (ix5 (0 : Fin 1) a j x y)
    = shareStay (V m c main_arg0) (V m c main_v12) (V m c main_v13) (V m c main_v14)
        (((cfg0.win 6).blk t).view.emb (ix5 (0 : Fin 1) a j x y))
  rw [out_emb, stored_at]
  rfl

/-! ## The blocks tile the result -/

/-- An index of the result is in point t's block iff each coordinate is in the block's range on its axis. -/
theorem mem_blk (t : Fin cfg0.N) (i : S1x32x64x256x256.Idx) :
    i ∈ ((cfg0.win 6).blk t).view.set ↔ ∀ a : Fin 5, win0_6.index t a * S1x4x4x256x256.size a ≤ (i a).val
      ∧ (i a).val < win0_6.index t a * S1x4x4x256x256.size a + S1x4x4x256x256.size a := by
  show i ∈ ((View.whole main_v15).slice (win0_6.rect t)).set ↔ _
  rw [View.set_slice_whole, Rect.mem_set_unit]
  exact Iff.rfl

/-- Every index of the result is in the block of the point of its channel group and frame group. -/
theorem cover (i : S1x32x64x256x256.Idx) :
    ∃ t : Fin cfg0.N, (cfg0.win 6).flush t = true ∧ i ∈ ((cfg0.win 6).blk t).view.set := by
  have h0 : (i 0).val < 1 := (i 0).isLt
  have h1 : (i 1).val < 32 := (i 1).isLt
  have h2 : (i 2).val < 64 := (i 2).isLt
  have h3 : (i 3).val < 256 := (i 3).isLt
  have h4 : (i 4).val < 256 := (i 4).isLt
  obtain ⟨t, ht⟩ := out_onto ⟨(i 1).val / 4, by omega⟩ ⟨(i 2).val / 4, by omega⟩
  have q0 : win0_6.index t (0 : Fin 5) = 0 := congrFun ht 0
  have q1 : win0_6.index t (1 : Fin 5) = (i 1).val / 4 := congrFun ht 1
  have q2 : win0_6.index t (2 : Fin 5) = (i 2).val / 4 := congrFun ht 2
  have q3 : win0_6.index t (3 : Fin 5) = 0 := congrFun ht 3
  have q4 : win0_6.index t (4 : Fin 5) = 0 := congrFun ht 4
  refine ⟨t, flush0_6 t, ?_⟩
  rw [mem_blk]
  intro a
  match a with
  | ⟨0, _⟩ => show win0_6.index t (0 : Fin 5) * 1 ≤ (i 0).val ∧ (i 0).val < win0_6.index t (0 : Fin 5) * 1 + 1; omega
  | ⟨1, _⟩ => show win0_6.index t (1 : Fin 5) * 4 ≤ (i 1).val ∧ (i 1).val < win0_6.index t (1 : Fin 5) * 4 + 4; omega
  | ⟨2, _⟩ => show win0_6.index t (2 : Fin 5) * 4 ≤ (i 2).val ∧ (i 2).val < win0_6.index t (2 : Fin 5) * 4 + 4; omega
  | ⟨3, _⟩ => show win0_6.index t (3 : Fin 5) * 256 ≤ (i 3).val ∧ (i 3).val < win0_6.index t (3 : Fin 5) * 256 + 256; omega
  | ⟨4, _⟩ => show win0_6.index t (4 : Fin 5) * 256 ≤ (i 4).val ∧ (i 4).val < win0_6.index t (4 : Fin 5) * 256 + 256; omega

/-! ## The result after the run -/

/-- The result array after the run: the step with the end frames repeated, of the arrays the region found. -/
theorem final (c : Dev nD) : (dats m 0 c).arrAt 6 cfg0.N
    = shareStay (V m c main_arg0) (V m c main_v12) (V m c main_v13) (V m c main_v14) :=
  (dats m 0 c).arrAt_eq_of_cover 6 _ (fun t _ => flushed_eq m c t) (fun i => cover i)

/-- The run re-posted: the result at the step of the launched array and the three weight arrays the host operations
    computed, both arguments unchanged. -/
theorem run_value : θ_run (defs (F := Ideal)) (onTc (τ := τ) (main (F := Ideal))) ⟨m, fun _ => 0, ρ⟩ fun r => ∀ c : Dev nD,
      r.2.mem ((c.tc : Thread nD τ).loc main_v15)
        = shareStay (m ((c.tc : Thread nD τ).loc main_arg0)) (V m c main_v12) (V m c main_v13) (V m c main_v14)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).1 6).trans ((final m c).trans (by rw [V_main_arg0])),
       ((h c).1 0).trans (((dats m 0 c).arrAt_in 0 rfl _).trans ((A_eq m c 0).trans (V_main_arg0 m c))),
       ((h c).2 main_arg1 (Pipeline.mem_restRefs_of main_arg1 rfl (by decide))).trans (V_main_arg1 m c)⟩)
    (run_main m ρ)

end Cert.KernelIdeal.Final

end
-- ==== Proof.LibPadRead.lean ====
/-
  `stablehlo.pad` read at an index.

  The padded array of shape `t` is the operand `x` (shape `s`) with `lo a` copies of the padding value before,
  `hi a` after and `interior a` between consecutive elements on every axis `a`. Read at an index `j`:

  * if on EVERY axis the coordinate of `j` is `lo a + (i a) · (interior a + 1)` for an operand index `i`, the
    padded array holds the operand's element `x i` (`pad_apply_inside`);
  * if on SOME axis the coordinate of `j` lies before `lo a`, or at or beyond the operand's last element
    (`s.size a ≤ (j a − lo a) / (interior a + 1)`), it holds the padding value, the one element of the
    rank-zero operand `v` (`pad_apply_outside`).

  With no interior padding the two cases are `j a = lo a + i a` and `j a < lo a ∨ lo a + s.size a ≤ j a`
  (`pad_apply_inside_plain`, `pad_apply_outside_plain`).
-/
import Idealize.ShloMosaic.PureOps.ShapeOps

namespace Cert.LibPadRead

open Idealize.ShloMosaic

variable {s : Shape} {α : Type}

/-- A padded array read where every coordinate is `lo + i · (interior + 1)` is the operand at `i`. -/
theorem pad_apply_inside (t : Shape) (lo hi interior : Fin s.rank → Nat) (x : s.Idx → α) {u : Shape} (v : u.Idx → α)
    (h : s.Pads lo hi interior t) (hu : 0 < u.numel) (j : t.Idx) (i : s.Idx)
    (hji : ∀ a : Fin s.rank, (j (a.cast h.1)).val = lo a + (i a).val * (interior a + 1)) :
    pad t lo hi interior x v h hu j = x i := by
  have hq : ∀ a : Fin s.rank, ((j (a.cast h.1)).val - lo a) / (interior a + 1) = (i a).val := fun a => by
    rw [hji a, Nat.add_sub_cancel_left, Nat.mul_div_cancel _ (Nat.succ_pos _)]
  have hin : ∀ a : Fin s.rank, lo a ≤ (j (a.cast h.1)).val ∧ ((j (a.cast h.1)).val - lo a) % (interior a + 1) = 0
      ∧ ((j (a.cast h.1)).val - lo a) / (interior a + 1) < s.size a := fun a =>
    ⟨by rw [hji a]; exact Nat.le_add_right _ _,
     by rw [hji a, Nat.add_sub_cancel_left]; exact Nat.mul_mod_left _ _,
     by rw [hq a]; exact (i a).isLt⟩
  unfold pad
  rw [dif_pos hin]
  exact congrArg x (funext fun a => Fin.ext (hq a))

/-- A padded array read where some coordinate falls before the operand's first element or past its last is the padding value. -/
theorem pad_apply_outside (t : Shape) (lo hi interior : Fin s.rank → Nat) (x : s.Idx → α) {u : Shape} (v : u.Idx → α)
    (h : s.Pads lo hi interior t) (hu : 0 < u.numel) (j : t.Idx) (a : Fin s.rank)
    (ha : (j (a.cast h.1)).val < lo a ∨ s.size a ≤ ((j (a.cast h.1)).val - lo a) / (interior a + 1)) :
    pad t lo hi interior x v h hu j = v (Shape.Idx.first hu) := by
  unfold pad
  rw [dif_neg]
  intro hin
  rcases ha with ha | ha
  · exact absurd (hin a).1 (Nat.not_le.mpr ha)
  · exact absurd (hin a).2.2 (Nat.not_lt.mpr ha)

/-- No interior padding: the padded array at `lo + i` is the operand at `i`. -/
theorem pad_apply_inside_plain (t : Shape) (lo hi interior : Fin s.rank → Nat) (x : s.Idx → α) {u : Shape} (v : u.Idx → α)
    (h : s.Pads lo hi interior t) (hu : 0 < u.numel) (h0 : ∀ a, interior a = 0) (j : t.Idx) (i : s.Idx)
    (hji : ∀ a : Fin s.rank, (j (a.cast h.1)).val = lo a + (i a).val) :
    pad t lo hi interior x v h hu j = x i :=
  pad_apply_inside t lo hi interior x v h hu j i fun a => by rw [hji a, h0 a, Nat.zero_add, Nat.mul_one]

/-- No interior padding: the padded array before `lo` or from `lo + size` on, on some axis, is the padding value. -/
theorem pad_apply_outside_plain (t : Shape) (lo hi interior : Fin s.rank → Nat) (x : s.Idx → α) {u : Shape} (v : u.Idx → α)
    (h : s.Pads lo hi interior t) (hu : 0 < u.numel) (h0 : ∀ a, interior a = 0) (j : t.Idx) (a : Fin s.rank)
    (ha : (j (a.cast h.1)).val < lo a ∨ lo a + s.size a ≤ (j (a.cast h.1)).val) :
    pad t lo hi interior x v h hu j = v (Shape.Idx.first hu) :=
  pad_apply_outside t lo hi interior x v h hu j a (by
    rw [h0 a, Nat.zero_add, Nat.div_one]
    rcases ha with ha | ha
    · exact Or.inl ha
    · exact Or.inr (by omega))

end Cert.LibPadRead
-- ==== Proof.RefValue.lean ====
/-
  The reference program read index by index at the extended reals.

  The reference pads the 0/1 mask with one frame of the bit 0 on each side of the frame axis and takes the three
  frame windows [0:64], [1:65], [2:66] of it: the previous, the current and the next frame's mask. The three weight
  arrays are the conversions to floats of "previous and not current" (`a`), "current" (`b`) and "next and neither
  previous nor current" (`c`). It pads `k` with one ZERO frame on each side of its frame axis and takes the windows
  [0:64] (the previous frame, a zero before frame 0) and [2:66] (the next frame, a zero after frame 63). Its result is

      ((a · 1/2) · previous + b · k) + (c · 1/4) · next

  element by element: the specification's `shareZero`. On frame 0 the previous frame's mask is the padding bit 0,
  so `a` is the conversion of the bit 0, which is 0; on frame 63 the next frame's mask is the padding bit, so `c` is 0.
-/
import proofs.«124033_j24472723653316_1_alg».proof.Defs
import proofs.«124033_j24472723653316_1_alg».proof.Proof.Gen.ReferenceIdeal.Read
import proofs.«124033_j24472723653316_1_alg».proof.Proof.Gen.Pre_finite_inputs
import proofs.«124033_j24472723653316_1_alg».proof.Proof.Spec
import proofs.«124033_j24472723653316_1_alg».proof.Proof.LibPadRead

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx Cert.DataShare Cert.LibPadRead

/-- The contents of the argument `k`: an array [1, 32, 64, 256, 256] of extended reals. -/
abbrev KArr : Type := (⟨S1x32x64x256x256, .f32⟩ : BufTy).Contents (Elt Ideal)
/-- The contents of the argument mask: an array [64, 256, 256] of 32-bit integers. -/
abbrev MaskArr : Type := (⟨S64x256x256, .i32⟩ : BufTy).Contents (Elt Ideal)

/-! ## The padding values -/

/-- The padding bit of the mask is "0 ≠ 0", the bit 0. -/
theorem maskPadValue : Read.val_main_call0_v2 (F := Ideal) (Shape.Idx.first h_S_) = 0#1 := rfl

/-- The padding value of `k` is the integer 0 converted: the real 0. -/
theorem kPadValue : Read.val_main_call1_v0 (F := Ideal) (Shape.Idx.first h_S_) = 0 := by
  show (((0#32 : BitVec 32).toInt : ℝ) : EReal) = 0
  simp

/-- The bit 0 converts to the real 0. -/
theorem uitofp_zero : FloatOps.uitofp (F := Ideal) .f32 (0#1 : BitVec 1) = 0 := by
  show (((0#1 : BitVec 1).toNat : ℝ) : EReal) = 0
  simp

/-! ## The padded mask on its two added frames -/

/-- The padded mask holds the padding bit on its frame 0 … -/
theorem maskPad_first (mask : MaskArr) (x y : Fin 256) :
    Read.val_main_v3 (F := Ideal) mask (ix3 (0 : Fin 66) x y) = 0#1 := by
  unfold Read.val_main_v3
  exact (pad_apply_outside_plain (s := S64x256x256) _ _ _ _ _ _ _ _ (by decide) _ (0 : Fin 3)
    (Or.inl (by show (0 : Nat) < 1; omega))).trans maskPadValue

/-- … and on its frame 65. -/
theorem maskPad_last (mask : MaskArr) (x y : Fin 256) :
    Read.val_main_v3 (F := Ideal) mask (ix3 (65 : Fin 66) x y) = 0#1 := by
  unfold Read.val_main_v3
  exact (pad_apply_outside_plain (s := S64x256x256) _ _ _ _ _ _ _ _ (by decide) _ (0 : Fin 3)
    (Or.inr (by show 1 + 64 ≤ (65 : Nat); omega))).trans maskPadValue

/-- The weight of the previous frame vanishes on frame 0: there the previous frame's mask is the padding bit 0,
    "not current and previous" is the bit 0, and the bit 0 converts to 0. -/
theorem first_frame_zero (mask : MaskArr) (x y : Fin 256) :
    Read.val_main_v15 (F := Ideal) mask (ix3 (0 : Fin 64) x y) = 0 := by
  have e : Read.idx_main_v4 (ix3 (0 : Fin 64) x y) = ix3 (0 : Fin 66) x y :=
    funext fun a => match a with | ⟨0, _⟩ => rfl | ⟨1, _⟩ => rfl | ⟨2, _⟩ => rfl
  rw [Read.val_main_v15_apply, Read.val_main_v8_apply, Read.val_main_v4_apply, e, maskPad_first]
  show FloatOps.uitofp (F := Ideal) .f32 (_ &&& (0#1 : BitVec 1)) = 0
  rw [BitVec.and_zero]
  exact uitofp_zero

/-- The weight of the next frame vanishes on frame 63: there the next frame's mask is the padding bit 0. -/
theorem last_frame_zero (mask : MaskArr) (x y : Fin 256) :
    Read.val_main_v26 (F := Ideal) mask (ix3 (63 : Fin 64) x y) = 0 := by
  have e : Read.idx_main_v6 (ix3 (63 : Fin 64) x y) = ix3 (65 : Fin 66) x y :=
    funext fun a => match a with | ⟨0, _⟩ => rfl | ⟨1, _⟩ => rfl | ⟨2, _⟩ => rfl
  rw [Read.val_main_v26_apply, Read.val_main_v11_apply, Read.val_main_v6_apply, e, maskPad_last]
  show FloatOps.uitofp (F := Ideal) .f32 ((0#1 : BitVec 1) &&& _) = 0
  rw [BitVec.zero_and]
  exact uitofp_zero

/-! ## The two frame windows of the padded `k` -/

/-- The window [0:64] of the padded `k` is the previous frame, a zero before frame 0. -/
theorem prev_read (k : KArr) (ch : Fin 32) (t : Fin 64) (x y : Fin 256) :
    Read.val_main_v13 (F := Ideal) k (ix5 (0 : Fin 1) ch t x y) = prevZero k ch t x y := by
  rw [Read.val_main_v13_apply]
  unfold Read.val_main_v12 prevZero
  by_cases h : t.val = 0
  · rw [if_pos h]
    exact (pad_apply_outside_plain (s := S1x32x64x256x256) _ _ _ _ _ _ _ _ (by decide) _ (2 : Fin 5)
      (Or.inl (by show t.val < 1; omega))).trans kPadValue
  · rw [if_neg h]
    exact pad_apply_inside_plain (s := S1x32x64x256x256) _ _ _ _ _ _ _ _ (by decide) _
      (ix5 (0 : Fin 1) ch (back t) x y) (fun a => match a with
        | ⟨0, _⟩ => rfl
        | ⟨1, _⟩ => by show ch.val = 0 + ch.val; omega
        | ⟨2, _⟩ => by show t.val = 1 + (t.val - 1); omega
        | ⟨3, _⟩ => by show x.val = 0 + x.val; omega
        | ⟨4, _⟩ => by show y.val = 0 + y.val; omega)

/-- The window [2:66] of the padded `k` is the next frame, a zero after frame 63. -/
theorem next_read (k : KArr) (ch : Fin 32) (t : Fin 64) (x y : Fin 256) :
    Read.val_main_v14 (F := Ideal) k (ix5 (0 : Fin 1) ch t x y) = nextZero k ch t x y := by
  rw [Read.val_main_v14_apply]
  unfold Read.val_main_v12 nextZero
  by_cases h : t.val = 63
  · rw [if_pos h]
    exact (pad_apply_outside_plain (s := S1x32x64x256x256) _ _ _ _ _ _ _ _ (by decide) _ (2 : Fin 5)
      (Or.inr (by show 1 + 64 ≤ 2 + t.val; omega))).trans kPadValue
  · rw [if_neg h]
    have ht : t.val < 64 := t.isLt
    exact pad_apply_inside_plain (s := S1x32x64x256x256) _ _ _ _ _ _ _ _ (by decide) _
      (ix5 (0 : Fin 1) ch (fwd t) x y) (fun a => match a with
        | ⟨0, _⟩ => rfl
        | ⟨1, _⟩ => by show ch.val = 0 + ch.val; omega
        | ⟨2, _⟩ => by show 2 + t.val = 1 + min (t.val + 1) 63; omega
        | ⟨3, _⟩ => by show x.val = 0 + x.val; omega
        | ⟨4, _⟩ => by show y.val = 0 + y.val; omega)

/-! ## The reference is the specification -/

/-- The reference's result at (0, channel, frame, row, column). -/
theorem ref_at (k : KArr) (mask : MaskArr) (ch : Fin 32) (t : Fin 64) (x y : Fin 256) :
    Read.val_main_v32 (F := Ideal) k mask (ix5 (0 : Fin 1) ch t x y)
      = shareAt (prevZero k) (nextZero k) k (Read.val_main_v15 (F := Ideal) mask) (Read.val_main_v21 (F := Ideal) mask)
          (Read.val_main_v26 (F := Ideal) mask) ch t x y := by
  -- a weight array broadcast to the shape of `k` is read at (frame, row, column)
  have ea : Read.idx_main_v18 (Read.idx_main_v19 (ix5 (0 : Fin 1) ch t x y)) = ix3 t x y :=
    funext fun a => match a with | ⟨0, _⟩ => rfl | ⟨1, _⟩ => rfl | ⟨2, _⟩ => rfl
  have eb : Read.idx_main_v22 (Read.idx_main_v23 (ix5 (0 : Fin 1) ch t x y)) = ix3 t x y :=
    funext fun a => match a with | ⟨0, _⟩ => rfl | ⟨1, _⟩ => rfl | ⟨2, _⟩ => rfl
  have ec : Read.idx_main_v29 (Read.idx_main_v30 (ix5 (0 : Fin 1) ch t x y)) = ix3 t x y :=
    funext fun a => match a with | ⟨0, _⟩ => rfl | ⟨1, _⟩ => rfl | ⟨2, _⟩ => rfl
  rw [Read.val_main_v32_apply, Read.val_main_v31_apply, Read.val_main_v30_apply, Read.val_main_v29_apply,
    Read.val_main_v28_apply, Read.val_main_v27_apply, Read.val_main_cst_2_apply,
    Read.val_main_v25_apply, Read.val_main_v24_apply, Read.val_main_v23_apply, Read.val_main_v22_apply,
    Read.val_main_v20_apply, Read.val_main_v19_apply, Read.val_main_v18_apply, Read.val_main_v17_apply,
    Read.val_main_v16_apply, Read.val_main_cst_apply, ea, eb, ec, prev_read, next_read]
  rfl

/-- THE REFERENCE IS THE SPECIFICATION with zeros beyond the end frames, of `k` and of its own three weight arrays. -/
theorem ref_eq (k : KArr) (mask : MaskArr) :
    Read.val_main_v32 (F := Ideal) k mask
      = shareZero k (Read.val_main_v15 (F := Ideal) mask) (Read.val_main_v21 (F := Ideal) mask) (Read.val_main_v26 (F := Ideal) mask) := by
  funext i
  obtain ⟨z, ch, t, x, y, rfl⟩ : ∃ (z : Fin 1) (ch : Fin 32) (t : Fin 64) (x y : Fin 256), i = ix5 z ch t x y :=
    ⟨i 0, i 1, i 2, i 3, i 4, eq_ix5 i⟩
  obtain rfl : z = 0 := Subsingleton.elim _ _
  exact ref_at k mask ch t x y

/-! ## The reference's run -/

/-- The reference terminates on every weakly fair execution, without a fault, its arguments unchanged: its run with
    the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The reference's run with its result named: the specification, with zeros beyond the end frames, of the argument
    `k` and of the three weight arrays of the argument mask; the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32)
          = shareZero (m ((c.tc : Thread nD τ).loc main_arg0))
              (Read.val_main_v15 (F := Ideal) (m ((c.tc : Thread nD τ).loc main_arg1)))
              (Read.val_main_v21 (F := Ideal) (m ((c.tc : Thread nD τ).loc main_arg1)))
              (Read.val_main_v26 (F := Ideal) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨by rw [(h c).1, Read.val_main_v32_eq, ref_eq], (h c).2⟩)
    (Cert.ReferenceIdeal.Value.run (F := Ideal) m ρ)

end Cert.ReferenceIdeal.RefValue

end
-- ==== Proof.Weights.lean ====
/-
  The weight arrays the kernel's region finds are the reference's.

  Before its region the kernel computes, from the mask, the same three weight arrays as the reference and by the same
  operations in the same order: the mask compared with zero, padded with one frame of the bit 0 on each side of the
  frame axis, its three frame windows (previous, current, next), and the conversions to floats of "previous and not
  current", "current" and "next and neither previous nor current". So each of the three arrays, as the region finds
  it, is the reference's stage of that name applied to the mask as launched.
-/
import proofs.«124033_j24472723653316_1_alg».proof.Proof.Body
import proofs.«124033_j24472723653316_1_alg».proof.Proof.Gen.ReferenceIdeal.Read
import proofs.«124033_j24472723653316_1_alg».proof.Proof.Spec
import proofs.«124033_j24472723653316_1_alg».proof.Proof.RefValue
import Idealize.ShloMosaic.Lib.StableHlo.Run

set_option maxRecDepth 16384

noncomputable section

namespace Cert.KernelIdeal.Weights

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (c : Dev nD)

/-- The weight of the previous frame, as the region finds it, is the reference's: the conversion of
    "previous and not current". -/
theorem weight_prev :
    (Region.V m c main_v12 : Cert.DataShare.SM.Idx → EReal)
      = Cert.ReferenceIdeal.Read.val_main_v15 (F := Ideal) (m ((c.tc : Thread nD τ).loc main_arg1)) := by
  dsimp only [Region.V]
  simp only [Gen.hostOps0, Gen.hostOps0_1, Gen.hostOps0_2, List.flatten_cons, List.flatten_nil, List.append_nil,
    List.cons_append, List.nil_append]
  after_results
  rfl

/-- The weight of the current frame, as the region finds it, is the reference's: the conversion of "current". -/
theorem weight_cur :
    (Region.V m c main_v13 : Cert.DataShare.SM.Idx → EReal)
      = Cert.ReferenceIdeal.Read.val_main_v21 (F := Ideal) (m ((c.tc : Thread nD τ).loc main_arg1)) := by
  dsimp only [Region.V]
  simp only [Gen.hostOps0, Gen.hostOps0_1, Gen.hostOps0_2, List.flatten_cons, List.flatten_nil, List.append_nil,
    List.cons_append, List.nil_append]
  after_results
  rfl

/-- The weight of the next frame, as the region finds it, is the reference's: the conversion of
    "next and neither previous nor current". -/
theorem weight_next :
    (Region.V m c main_v14 : Cert.DataShare.SM.Idx → EReal)
      = Cert.ReferenceIdeal.Read.val_main_v26 (F := Ideal) (m ((c.tc : Thread nD τ).loc main_arg1)) := by
  dsimp only [Region.V]
  simp only [Gen.hostOps0, Gen.hostOps0_1, Gen.hostOps0_2, List.flatten_cons, List.flatten_nil, List.append_nil,
    List.cons_append, List.nil_append]
  after_results
  rfl

/-- On frame 0 the previous frame's weight, as the region finds it, is 0: there "previous" is the padding bit. -/
theorem weight_prev_first (x y : Fin 256) :
    (Region.V m c main_v12 : Cert.DataShare.SM.Idx → EReal) (ix3 (0 : Fin 64) x y) = (0 : EReal) :=
  (congrFun (weight_prev m c) (ix3 (0 : Fin 64) x y)).trans (Cert.ReferenceIdeal.RefValue.first_frame_zero _ x y)

/-- On frame 63 the next frame's weight, as the region finds it, is 0: there "next" is the padding bit. -/
theorem weight_next_last (x y : Fin 256) :
    (Region.V m c main_v14 : Cert.DataShare.SM.Idx → EReal) (ix3 (63 : Fin 64) x y) = (0 : EReal) :=
  (congrFun (weight_next m c) (ix3 (63 : Fin 64) x y)).trans (Cert.ReferenceIdeal.RefValue.last_frame_zero _ x y)

end Cert.KernelIdeal.Weights

end
-- ==== Proof.lean ====
/-
  The data-sharing step: a tiled kernel against its plain array reference, equal at the extended reals.

  Both programs compute, for `k` of shape [1, 32, 64, 256, 256] (batch, channel, frame, row, column) and three weight
  arrays `a`, `b`, `c` of shape [64, 256, 256] derived from an integer mask by the same host operations,

      out(0,ch,t,x,y) = ((a(t,x,y) · 1/2) · k(ch,t−1,x,y) + b(t,x,y) · k(ch,t,x,y)) + (c(t,x,y) · 1/4) · k(ch,t+1,x,y).

  The reference pads `k` with a zero frame on each side of the frame axis; the kernel tiles (frame, channel), reads the
  tile and one halo frame on each side, and at the two ends of the axis its halo index is clipped, so it reads the end
  frame again instead of a zero. The weights make this immaterial: `a` is "sampled in the previous frame and not in
  this one", and the frame before frame 0 is padding, so `a` is 0 on frame 0; likewise `c` is 0 on frame 63. The
  differing factor is therefore multiplied by 0 on both sides, and 0 · x = 0 for every extended real
  (`Cert.DataShare.share_stay_eq_share_zero`). The precondition is never opened.

  The pieces: the region's frame at any float instance, through a launch in which three windows read ONE array, its
  full share dealt among them (Proof/Body.lean, Proof/Run.lean; the word-level program's copies Proof/BodyWords.lean,
  Proof/RunWords.lean); the kernel's arithmetic at an index (Proof/Payload.lean) and its blocks assembled into the
  whole array (Proof/Final.lean); the reference read at an index, the two pads included (Proof/RefValue.lean,
  Proof/LibPadRead.lean); the kernel's weight arrays are the reference's (Proof/Weights.lean).
-/
import proofs.«124033_j24472723653316_1_alg».proof.Defs
import proofs.«124033_j24472723653316_1_alg».proof.Proof.Gen.Kernel
import proofs.«124033_j24472723653316_1_alg».proof.Proof.Gen.KernelIdeal
import proofs.«124033_j24472723653316_1_alg».proof.Proof.Gen.ReferenceIdeal
import proofs.«124033_j24472723653316_1_alg».proof.Proof.Gen.ReferenceIdeal.Run
import proofs.«124033_j24472723653316_1_alg».proof.Proof.Gen.ReferenceIdeal.Read
import proofs.«124033_j24472723653316_1_alg».proof.Proof.Gen.Pre_finite_inputs
import proofs.«124033_j24472723653316_1_alg».proof.Proof.Spec
import proofs.«124033_j24472723653316_1_alg».proof.Proof.RunWords
import proofs.«124033_j24472723653316_1_alg».proof.Proof.Final
import proofs.«124033_j24472723653316_1_alg».proof.Proof.RefValue
import proofs.«124033_j24472723653316_1_alg».proof.Proof.Weights

noncomputable section

namespace Cert.Proof

open Idealize.ShloMosaic Idealize.ShloMosaic.TcCoe Idealize.SL.Sem

/-- The word-level kernel runs to the end and leaves its arguments as launched. -/
theorem frame_kernel : Cert.frame_Kernel := fun m ρ _ => Cert.Kernel.Region.frame m ρ

/-- So does the kernel read at the extended reals: the same statement about the same text. -/
theorem frame_kernelIdeal : Cert.frame_KernelIdeal := fun m ρ _ => Cert.KernelIdeal.Region.frame m ρ

/-- The reference is host operations only: its run, the result dropped. -/
theorem frame_referenceIdeal : Cert.frame_ReferenceIdeal := Cert.ReferenceIdeal.RefValue.frame_ri

/-- The ideal pass rewrote nothing: there is nothing to preserve. -/
theorem preserves : Cert.preserves_Kernel_KernelIdeal := trivial

/-- From memories agreeing on the arguments both programs end with the same array: the kernel's, with the end frames
    repeated, and the reference's, with zeros beyond the ends, over the same `k` and the same three weight arrays, of
    which the first vanishes on frame 0 and the third on frame 63. -/
theorem algebraic : Cert.algebraic_KernelIdeal_ReferenceIdeal := by
  intro m ρ m' ρ' _ hagree
  refine ⟨fun c => Cert.DataShare.shareStay (m ((c.tc : Thread Cert.KernelIdeal.nD Cert.KernelIdeal.τ).loc Cert.KernelIdeal.main_arg0))
      (Cert.KernelIdeal.Region.V m c Cert.KernelIdeal.main_v12) (Cert.KernelIdeal.Region.V m c Cert.KernelIdeal.main_v13)
      (Cert.KernelIdeal.Region.V m c Cert.KernelIdeal.main_v14), Cert.KernelIdeal.Final.run_value m ρ, ?_⟩
  refine (θ_run Cert.ReferenceIdeal.defs _ _).mono (fun _ h c => ⟨(h c).1.trans ?_, (h c).2⟩) (Cert.ReferenceIdeal.RefValue.ref_run m' ρ')
  rw [(hagree c).1, (hagree c).2]
  show _ = Cert.DataShare.shareStay (m ((c.tc : Thread Cert.KernelIdeal.nD Cert.KernelIdeal.τ).loc Cert.KernelIdeal.main_arg0))
      (Cert.KernelIdeal.Region.V m c Cert.KernelIdeal.main_v12 : Cert.DataShare.SM.Idx → EReal)
      (Cert.KernelIdeal.Region.V m c Cert.KernelIdeal.main_v13 : Cert.DataShare.SM.Idx → EReal)
      (Cert.KernelIdeal.Region.V m c Cert.KernelIdeal.main_v14 : Cert.DataShare.SM.Idx → EReal)
  rw [Cert.KernelIdeal.Weights.weight_prev m c, Cert.KernelIdeal.Weights.weight_cur m c, Cert.KernelIdeal.Weights.weight_next m c]
  exact (Cert.DataShare.share_stay_eq_share_zero _ _ _ _ (Cert.ReferenceIdeal.RefValue.first_frame_zero _) (Cert.ReferenceIdeal.RefValue.last_frame_zero _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
